-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S2048x256 .f32
  ∧ IdealRules.sign_bit.Statement Cert.KernelIdeal.S2048x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S256x784 : Shape := ⟨2, ![256, 784]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S256x784 : S_.BroadcastsInDim S256x784 (![] : Fin 0 → Fin S256x784.rank)
  reducesTo_S256x784_S_d0_1 : S256x784.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S10x128 .f32) (main_arg6 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S10x128 .f32 := Host.absf main_arg5
  let main_cst_8 : FVec F S_ .f32 := constant S_ .f32 0x7F800000#32
  let main_v25 : FVec F S10x128 .f32 := broadcastInDim S10x128 ![] bcast_S_S10x128 main_cst_8
  let main_v26 : IVec S10x128 1 := cmpf .olt main_v24 main_v25
  let main_c_9 : IVec S_ 1 := constantI S_ 1 1#1
  let main_v27 : IVec S_ 1 := (fun x v => Host.reduce IntOp.andi x v reducesTo_S10x128_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S65536x784 .f32) (main_arg1 : FVec F S256x784 .f32) (main_arg2 : FVec F S256 .f32) (main_arg3 : FVec F S128x256 .f32) (main_arg4 : FVec F S128 .f32) (main_arg5 : FVec F S10x128 .f32) (main_arg6 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S256x784 .f32 := Host.absf main_arg1
  let main_cst_0 : FVec F S_ .f32 := constant S_ .f32 0x7F800000#32
  let main_v5 : FVec F S256x784 .f32 := broadcastInDim S256x784 ![] bcast_S_S256x784 main_cst_0
  let main_v6 : IVec S256x784 1 := cmpf .olt main_v4 main_v5
  let main_c_1 : IVec S_ 1 := constantI S_ 1 1#1
  let main_v7 : IVec S_ 1 := (fun x v => Host.reduce IntOp.andi x v reducesTo_S256x784_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S65536x784 : Shape := ⟨2, ![65536, 784]⟩
abbrev S256x784 : Shape := ⟨2, ![256, 784]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S1x256 : Shape := ⟨2, ![1, 256]⟩
abbrev S1x128 : Shape := ⟨2, ![1, 128]⟩
abbrev S1x10 : Shape := ⟨2, ![1, 10]⟩
abbrev S65536x10 : Shape := ⟨2, ![65536, 10]⟩
abbrev S2048x784 : Shape := ⟨2, ![2048, 784]⟩
abbrev S2048x10 : Shape := ⟨2, ![2048, 10]⟩
abbrev S2048x256 : Shape := ⟨2, ![2048, 256]⟩
abbrev S2048x128 : Shape := ⟨2, ![2048, 128]⟩
abbrev S_ : Shape := ⟨0, ![]⟩
abbrev S2048 : Shape := ⟨1, ![2048]⟩
abbrev S2048x1 : Shape := ⟨2, ![2048, 1]⟩

abbrev nBuf : Space → Nat
  | .hbm => 45
  | .vmem => 16
  | .smem => 0
  | _ => 0

abbrev bufTy : (tb : Table) → Fin (tcTables nBuf tb) → BufTy
  | .hbm, ⟨0, _⟩ => ⟨S65536x784, .f32⟩
  | .hbm, ⟨1, _⟩ => ⟨S256x784, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S10x128, .f32⟩
  | .hbm, ⟨6, _⟩ => ⟨S10, .f32⟩
  | .hbm, ⟨7, _⟩ => ⟨S256x784, .f32⟩
  | .hbm, ⟨8, _⟩ => ⟨S128x256, .f32⟩
  | .hbm, ⟨9, _⟩ => ⟨S10x128, .f32⟩
  | .hbm, ⟨10, _⟩ => ⟨S1x256, .f32⟩
  | .hbm, ⟨11, _⟩ => ⟨S1x128, .f32⟩
  | .hbm, ⟨12, _⟩ => ⟨S1x10, .f32⟩
  | .hbm, ⟨13, _⟩ => ⟨S65536x10, .f32⟩
  | .hbm, ⟨14, _⟩ => ⟨S_, .f32⟩
  | .hbm, ⟨15, _⟩ => ⟨S10, .f32⟩
  | .hbm, ⟨16, _⟩ => ⟨S1x10, .f32⟩
  | .hbm, ⟨17, _⟩ => ⟨S_, .f32⟩
  | .hbm, ⟨18, _⟩ => ⟨S1x10, .f32⟩
  | .hbm, ⟨19, _⟩ => ⟨S1x10, .f32⟩
  | .hbm, ⟨20, _⟩ => ⟨S_, .i32⟩
  | .hbm, ⟨21, _⟩ => ⟨S_, .f32⟩
  | .hbm, ⟨22, _⟩ => ⟨S10, .f32⟩
  | .hbm, ⟨23, _⟩ => ⟨S1x10, .f32⟩
  | .hbm, ⟨24, _⟩ => ⟨S_, .f32⟩
  | .hbm, ⟨25, _⟩ => ⟨S1x10, .f32⟩
  | .hbm, ⟨26, _⟩ => ⟨S1x10, .f32⟩
  | .hbm, ⟨27, _⟩ => ⟨S65536x10, .f32⟩
  | .hbm, ⟨28, _⟩ => ⟨S65536x10, .f32⟩
  | .hbm, ⟨29, _⟩ => ⟨S65536x10, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S10, .f32⟩
  | .hbm, ⟨35, _⟩ => ⟨S1x10, .f32⟩
  | .hbm, ⟨36, _⟩ => ⟨S1x10, .f32⟩
  | .hbm, ⟨37, _⟩ => ⟨S1x10, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S1x10, .f32⟩
  | .hbm, ⟨43, _⟩ => ⟨S1x10, .f32⟩
  | .hbm, ⟨44, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S256x784, .f32⟩
  | .local _ .vmem, ⟨3, _⟩ => ⟨S1x256, .f32⟩
  | .local _ .vmem, ⟨4, _⟩ => ⟨S128x256, .f32⟩
  | .local _ .vmem, ⟨5, _⟩ => ⟨S1x128, .f32⟩
  | .local _ .vmem, ⟨6, _⟩ => ⟨S10x128, .f32⟩
  | .local _ .vmem, ⟨7, _⟩ => ⟨S1x10, .f32⟩
  | .local _ .vmem, ⟨8, _⟩ => ⟨S2048x10, .f32⟩
  | .local _ .vmem, ⟨9, _⟩ => ⟨S2048x10, .f32⟩
  | .local _ .vmem, ⟨10, _⟩ => ⟨S2048x10, .f32⟩
  | .local _ .vmem, ⟨11, _⟩ => ⟨S2048x10, .f32⟩
  | .local _ .vmem, ⟨12, _⟩ => ⟨S1x10, .f32⟩
  | .local _ .vmem, ⟨13, _⟩ => ⟨S1x10, .f32⟩
  | .local _ .vmem, ⟨14, _⟩ => ⟨S2048x10, .f32⟩
  | .local _ .vmem, ⟨15, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v11 : Ref sig .tc := ⟨.hbm, 43, rfl⟩
abbrev main_v12 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S256_S1x256 : S256.ShapeCasts S1x256
  shapeCasts_S128_S1x128 : S128.ShapeCasts S1x128
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  bitsLt_bf16_f32 : FTy.bits .bf16 < FTy.bits .f32
  inb_S256x784_S256x784_0_0 : ∀ a, (![0, 0] : Fin 2 → Nat) a + S256x784.size a ≤ S256x784.size a
  h_S256x784 : 0 < S256x784.numel
  shapeCasts_S256x784_S256x784 : S256x784.ShapeCasts S256x784
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  reducesTo_S65536x10_S10_d0 : S65536x10.ReducesTo [0] S10
  h_S_ : 0 < S_.numel
  bcast_S10_S1x10_1 : S10.BroadcastsInDim S1x10 (![1] : Fin 1 → Fin S1x10.rank)
  bcast_S_S1x10 : S_.BroadcastsInDim S1x10 (![] : Fin 0 → Fin S1x10.rank)
  bcast_S1x10_S65536x10_0_1 : S1x10.BroadcastsInDim S65536x10 (![0, 1] : Fin 2 → Fin S65536x10.rank)
  shapeCasts_S2048x10_S2048x10 : S2048x10.ShapeCasts S2048x10
  reduces_S2048x10_S2048 : S2048x10.Reduces [1] S2048
  shapeCasts_S2048_S2048x1 : S2048.ShapeCasts S2048x1
  broadcasts_S2048x1_S2048x10 : S2048x1.Broadcasts S2048x10
  dot_S2048x784_S256x784_S2048x256_1_1_0_0_n_n_wf : DotDims.WF S2048x784 S256x784 S2048x256 [1] [1] [0] [0] [] []
  dot_S2048x256_S128x256_S2048x128_1_1_0_0_n_n_wf : DotDims.WF S2048x256 S128x256 S2048x128 [1] [1] [0] [0] [] []
  dot_S2048x128_S10x128_S2048x10_1_1_0_0_n_n_wf : DotDims.WF S2048x128 S10x128 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x784.size a ≤ S256x784.size a
  hwx0_1 : ∀ i : grid0.Coords, EltTy.bits .f32 = 32 ∨ (Rect.block (s := S256x784) S256x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x128.size a
  hwx0_5 : ∀ i : grid0.Coords, EltTy.bits .f32 = 32 ∨ (Rect.block (s := S10x128) S10x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x10.size a ≤ S65536x10.size a
  hwx0_7 : ∀ i : grid0.Coords, EltTy.bits .f32 = 32 ∨ (Rect.block (s := S65536x10) S2048x10.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x10.size a ≤ S65536x10.size a
  hwx1_0 : ∀ i : grid1.Coords, EltTy.bits .f32 = 32 ∨ (Rect.block (s := S65536x10) S2048x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x10.size a ≤ S1x10.size a
  hwx1_1 : ∀ i : grid1.Coords, EltTy.bits .f32 = 32 ∨ (Rect.block (s := S1x10) S1x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x10.size a ≤ S65536x10.size a
  hwx1_3 : ∀ i : grid1.Coords, EltTy.bits .f32 = 32 ∨ (Rect.block (s := S65536x10) S2048x10.size (cc1_transform_3 i) (hinb1_3 i)).WholeWords (EltTy.packing .f32)

variable [Facts₀]

def dot_S2048x784_S256x784_S2048x256_1_1_0_0_n_n : DotDims S2048x784 S256x784 S2048x256 where
  lhsContracting := [1]
  rhsContracting := [1]
  lhsNonContracting := [0]
  rhsNonContracting := [0]
  lhsBatch := []
  rhsBatch := []
  wf := dot_S2048x784_S256x784_S2048x256_1_1_0_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S2048x128_S10x128_S2048x10_1_1_0_0_n_n : DotDims S2048x128 S10x128 S2048x10 where
  lhsContracting := [1]
  rhsContracting := [1]
  lhsNonContracting := [0]
  rhsNonContracting := [0]
  lhsBatch := []
  rhsBatch := []
  wf := dot_S2048x128_S10x128_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2048x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6) S2048x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x784 : Shape := ⟨2, ![65536, 784]⟩
abbrev S256x784 : Shape := ⟨2, ![256, 784]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S784x256 : Shape := ⟨2, ![784, 256]⟩
abbrev S65536x256 : Shape := ⟨2, ![65536, 256]⟩
abbrev S1x256 : Shape := ⟨2, ![1, 256]⟩
abbrev S_ : Shape := ⟨0, ![]⟩
abbrev S256x128 : Shape := ⟨2, ![256, 128]⟩
abbrev S65536x128 : Shape := ⟨2, ![65536, 128]⟩
abbrev S1x128 : Shape := ⟨2, ![1, 128]⟩
abbrev S128x10 : Shape := ⟨2, ![128, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 106
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S256x784, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S10x128, .f32⟩
  | .hbm, ⟨6, _⟩ => ⟨S10, .f32⟩
  | .hbm, ⟨7, _⟩ => ⟨S256x784, .f32⟩
  | .hbm, ⟨8, _⟩ => ⟨S256x784, .f32⟩
  | .hbm, ⟨9, _⟩ => ⟨S256x784, .f32⟩
  | .hbm, ⟨10, _⟩ => ⟨S784x256, .f32⟩
  | .hbm, ⟨11, _⟩ => ⟨S65536x256, .f32⟩
  | .hbm, ⟨12, _⟩ => ⟨S1x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S65536x256, .f32⟩
  | .hbm, ⟨19, _⟩ => ⟨S65536x256, .f32⟩
  | .hbm, ⟨20, _⟩ => ⟨S_, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S256x128, .f32⟩
  | .hbm, ⟨30, _⟩ => ⟨S65536x128, .f32⟩
  | .hbm, ⟨31, _⟩ => ⟨S1x128, .f32⟩
  | .hbm, ⟨32, _⟩ => ⟨S65536x128, .f32⟩
  | .hbm, ⟨33, _⟩ => ⟨S65536x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S65536x128, .f32⟩
  | .hbm, ⟨38, _⟩ => ⟨S65536x128, .f32⟩
  | .hbm, ⟨39, _⟩ => ⟨S_, .f32⟩
  | .hbm, ⟨40, _⟩ => ⟨S65536x128, .f32⟩
  | .hbm, ⟨41, _⟩ => ⟨S65536x128, .f32⟩
  | .hbm, ⟨42, _⟩ => ⟨S65536x128, .f32⟩
  | .hbm, ⟨43, _⟩ => ⟨S65536x128, .f32⟩
  | .hbm, ⟨44, _⟩ => ⟨S65536x128, .f32⟩
  | .hbm, ⟨45, _⟩ => ⟨S10x128, .f32⟩
  | .hbm, ⟨46, _⟩ => ⟨S10x128, .f32⟩
  | .hbm, ⟨47, _⟩ => ⟨S10x128, .f32⟩
  | .hbm, ⟨48, _⟩ => ⟨S128x10, .f32⟩
  | .hbm, ⟨49, _⟩ => ⟨S65536x10, .f32⟩
  | .hbm, ⟨50, _⟩ => ⟨S1x10, .f32⟩
  | .hbm, ⟨51, _⟩ => ⟨S65536x10, .f32⟩
  | .hbm, ⟨52, _⟩ => ⟨S65536x10, .f32⟩
  | .hbm, ⟨53, _⟩ => ⟨S_, .f32⟩
  | .hbm, ⟨54, _⟩ => ⟨S10, .f32⟩
  | .hbm, ⟨55, _⟩ => ⟨S1x10, .f32⟩
  | .hbm, ⟨56, _⟩ => ⟨S_, .f32⟩
  | .hbm, ⟨57, _⟩ => ⟨S1x10, .f32⟩
  | .hbm, ⟨58, _⟩ => ⟨S1x10, .f32⟩
  | .hbm, ⟨59, _⟩ => ⟨S_, .i32⟩
  | .hbm, ⟨60, _⟩ => ⟨S_, .f32⟩
  | .hbm, ⟨61, _⟩ => ⟨S10, .f32⟩
  | .hbm, ⟨62, _⟩ => ⟨S1x10, .f32⟩
  | .hbm, ⟨63, _⟩ => ⟨S_, .f32⟩
  | .hbm, ⟨64, _⟩ => ⟨S1x10, .f32⟩
  | .hbm, ⟨65, _⟩ => ⟨S1x10, .f32⟩
  | .hbm, ⟨66, _⟩ => ⟨S65536x10, .f32⟩
  | .hbm, ⟨67, _⟩ => ⟨S65536x10, .f32⟩
  | .hbm, ⟨68, _⟩ => ⟨S65536x10, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S10, .f32⟩
  | .hbm, ⟨74, _⟩ => ⟨S1x10, .f32⟩
  | .hbm, ⟨75, _⟩ => ⟨S1x10, .f32⟩
  | .hbm, ⟨76, _⟩ => ⟨S1x10, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S1x10, .f32⟩
  | .hbm, ⟨82, _⟩ => ⟨S1x10, .f32⟩
  | .hbm, ⟨83, _⟩ => ⟨S65536x10, .f32⟩
  | .hbm, ⟨84, _⟩ => ⟨S65536x10, .f32⟩
  | .hbm, ⟨85, _⟩ => ⟨S_, .f32⟩
  | .hbm, ⟨86, _⟩ => ⟨S1x10, .f32⟩
  | .hbm, ⟨87, _⟩ => ⟨S1x10, .f32⟩
  | .hbm, ⟨88, _⟩ => ⟨S1x10, .f32⟩
  | .hbm, ⟨89, _⟩ => ⟨S65536x10, .f32⟩
  | .hbm, ⟨90, _⟩ => ⟨S65536x10, .f32⟩
  | .hbm, ⟨91, _⟩ => ⟨S_, .f32⟩
  | .hbm, ⟨92, _⟩ => ⟨S65536, .f32⟩
  | .hbm, ⟨93, _⟩ => ⟨S_, .f32⟩
  | .hbm, ⟨94, _⟩ => ⟨S65536, .f32⟩
  | .hbm, ⟨95, _⟩ => ⟨S65536, .f32⟩
  | .hbm, ⟨96, _⟩ => ⟨S65536x1, .f32⟩
  | .hbm, ⟨97, _⟩ => ⟨S65536x10, .f32⟩
  | .hbm, ⟨98, _⟩ => ⟨S65536x10, .f32⟩
  | .hbm, ⟨99, _⟩ => ⟨S65536x10, .f32⟩
  | .hbm, ⟨100, _⟩ => ⟨S_, .f32⟩
  | .hbm, ⟨101, _⟩ => ⟨S65536, .f32⟩
  | .hbm, ⟨102, _⟩ => ⟨S65536x1, .f32⟩
  | .hbm, ⟨103, _⟩ => ⟨S65536x1, .f32⟩
  | .hbm, ⟨104, _⟩ => ⟨S65536x10, .f32⟩
  | .hbm, ⟨105, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_c : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_cst_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_cst_1 : Ref sig .tc := ⟨.hbm, 70, rfl⟩
abbrev main_call2_v8 : Ref sig .tc := ⟨.hbm, 71, rfl⟩
abbrev main_call2_cst_2 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_cst_3 : Ref sig .tc := ⟨.hbm, 77, rfl⟩
abbrev main_call2_v13 : Ref sig .tc := ⟨.hbm, 78, rfl⟩
abbrev main_call2_cst_4 : Ref sig .tc := ⟨.hbm, 79, rfl⟩
abbrev main_call2_call0_v0 : Ref sig .tc := ⟨.hbm, 80, rfl⟩
abbrev main_call2_call0_v1 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_5 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_call3_cst : Ref sig .tc := ⟨.hbm, 91, rfl⟩
abbrev main_call3_v0 : Ref sig .tc := ⟨.hbm, 92, rfl⟩
abbrev main_call3_cst_0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_cst_1 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_v44 : Ref sig .tc := ⟨.hbm, 105, rfl⟩

abbrev nD : Nat := 1
abbrev τ : Topo := Topo.v7x

variable {F : FTy → Type} [FloatOps F]

class Facts₀ : Prop where
  transposes_S256x784_S784x256_1_0 : S256x784.Transposes [1, 0] S784x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S10x128_S128x10_1_0 : S10x128.Transposes [1, 0] S128x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S10_d0 : S65536x10.ReducesTo [0] S10
  h_S_ : 0 < S_.numel
  bcast_S_S1x10 : S_.BroadcastsInDim S1x10 (![] : Fin 0 → Fin S1x10.rank)
  reducesTo_S65536x10_S65536_d1 : S65536x10.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x256_S65536x256_1_0_0_1_n_n_wf : DotDims.WF S65536x784 S784x256 S65536x256 [1] [0] [0] [1] [] []
  dot_S65536x256_S256x128_S65536x128_1_0_0_1_n_n_wf : DotDims.WF S65536x256 S256x128 S65536x128 [1] [0] [0] [1] [] []
  dot_S65536x128_S128x10_S65536x10_1_0_0_1_n_n_wf : DotDims.WF S65536x128 S128x10 S65536x10 [1] [0] [0] [1] [] []

variable [Facts₀]

def dot_S65536x784_S784x256_S65536x256_1_0_0_1_n_n : DotDims S65536x784 S784x256 S65536x256 where
  lhsContracting := [1]
  rhsContracting := [0]
  lhsNonContracting := [0]
  rhsNonContracting := [1]
  lhsBatch := []
  rhsBatch := []
  wf := dot_S65536x784_S784x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x10_S65536x10_1_0_0_1_n_n : DotDims S65536x128 S128x10 S65536x10 where
  lhsContracting := [1]
  rhsContracting := [0]
  lhsNonContracting := [0]
  rhsNonContracting := [1]
  lhsBatch := []
  rhsBatch := []
  wf := dot_S65536x128_S128x10_S65536x10_1_0_0_1_n_n_wf

class Facts : Prop extends Facts₀ where

variable [Facts]
-- ==== Proof.ClaimsA.lean ====
/-
  Three of the certificate's five claims, each closed by a term that is already at hand: the two kernel programs'
  frame claims are the generated frame theorems read at the claim's instance, and the idealization's two rewrites
  (the constant one carrying a value's sign bit, replaced by a comparison against zero, at the two hidden layers'
  shapes) are the rule's own statement at each shape.
-/
import proofs.«143637_j89189290868841_1_alg».proof.Defs
import proofs.«143637_j89189290868841_1_alg».proof.Proof.Gen.Kernel.Frame
import proofs.«143637_j89189290868841_1_alg».proof.Proof.Gen.KernelIdeal.Frame
import proofs.«143637_j89189290868841_1_alg».proof.Proof.Gen.Pre_finite_inputs

noncomputable section

namespace Cert.Proof.ClaimsA

open Idealize.ShloMosaic Idealize.SL.Sem

/-- The printed kernel program terminates without fault and leaves its argument arrays as launched. -/
theorem frame_p : Cert.frame_Kernel (hKernel := Cert.Kernel.Gen.facts) (hPre_finite_inputs := Cert.Pre_finite_inputs.Gen.facts) :=
  fun m ρ _ => Cert.Kernel.Gen.frame m ρ

/-- So does its idealization, read at exact arithmetic. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The idealization's ledger: the sign-bit rule's statement at the first and at the second hidden layer's shape. -/
theorem preserves : Cert.preserves_Kernel_KernelIdeal :=
  ⟨IdealRules.sign_bit.statement Cert.KernelIdeal.S2048x256 .f32, IdealRules.sign_bit.statement Cert.KernelIdeal.S2048x128 .f32⟩

end Cert.Proof.ClaimsA

end
-- ==== Proof.KTerm.lean ====
/-
  The batch statistics the kernel's program computes on the host between its two kernel launches, as pure
  terms of the logits array: the column means and the column (biased) variances, each the composition of the
  host operations in program order.
-/
import proofs.«143637_j89189290868841_1_alg».proof.Proof.Gen.KernelIdeal

noncomputable section

namespace Cert.KernelIdeal.KTerm

open Cert.KernelIdeal Cert.KernelIdeal.Gen Idealize.ShloMosaic Idealize.ShloMosaic.TcCoe

variable {F : FTy → Type} [FloatOps F]

/-- The column means, kept as a row: (Σ over the batch) / 65536. -/
def muK (h : FVec F S65536x10 .f32) : FVec F S1x10 .f32 :=
  Host.divf (broadcastInDim S1x10 ![1] bcast_S10_S1x10_1 (Host.reduceAdd h (constant S_ .f32 0x00000000#32) reducesTo_S65536x10_S10_d0 h_S_))
    (broadcastInDim S1x10 ![] bcast_S_S1x10 (constant S_ .f32 0x47800000#32))

/-- The number of rows minus the (zero) degrees-of-freedom correction, as a float scalar. -/
def dofK : FVec F S_ .f32 := subf (constant S_ .f32 0x47800000#32) (sitofp .f32 (constantI S_ 32 0#32))

/-- The column variances, kept as a row: the mean of the squared deviations, selected against the
    "count is positive" test as the library routine writes it. -/
def varK (h : FVec F S65536x10 .f32) : FVec F S1x10 .f32 :=
  select (broadcastInDim S1x10 ![] bcast_S_S1x10 (cmpf .ogt (dofK (F := F)) (constant S_ .f32 0x00000000#32)))
    (Host.divf
      (broadcastInDim S1x10 ![1] bcast_S10_S1x10_1
        (Host.reduceAdd
          (mulf (subf h (broadcastInDim S65536x10 ![0, 1] bcast_S1x10_S65536x10_0_1 (muK h)))
            (subf h (broadcastInDim S65536x10 ![0, 1] bcast_S1x10_S65536x10_0_1 (muK h))))
          (constant S_ .f32 0x00000000#32) reducesTo_S65536x10_S10_d0 h_S_))
      (broadcastInDim S1x10 ![] bcast_S_S1x10 (dofK (F := F))))
    (broadcastInDim S1x10 ![] bcast_S_S1x10 (id (constant S_ .f32 0x7FC00000#32)))

end Cert.KernelIdeal.KTerm

end
-- ==== Proof.KRun.lean ====
/-
  The host-side plumbing of the kernel's idealized program, read off the generated frame's fold of buffer
  contents: the run with the result array named, and what each kernel launch's input arrays hold when the launch
  is entered — the first launch's weights and biases as the sign / reshape of the arguments, the second launch's
  logits as the first launch's output and its two statistics rows as the column mean and variance of those logits.
-/
import proofs.«143637_j89189290868841_1_alg».proof.Proof.Gen.KernelIdeal.Frame
import proofs.«143637_j89189290868841_1_alg».proof.Proof.KTerm

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole program from any memory with zero counters: every weakly fair execution terminates, and
    every final state has the result array at the last boundary's contents and the argument arrays as launched. -/
theorem run_named : θ_run defs (onTc (τ := τ) (main (F := F))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The result array at the last boundary is what the second launch's write-backs leave in it. -/
theorem out_eq (c : Dev nD) : W5 m ρ c (Proc.devRef .tc main_v12) = (dat1 (V4 m ρ) c).arrAt 3 cfg1.N :=
  W5_arr m ρ c 3

/-! ## The host stretches between the launches, over any contents

Each stretch's fold read at one buffer, as a term of the contents `X` the stretch starts from. -/

section Stretches

variable (X : Valuation τ sig (Elt F))

/-- No operation between the launches writes the logits array. -/
theorem after1_h : StableHlo.after hostOps1 X (Proc.devRef .tc main_v6) = X (Proc.devRef .tc main_v6) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem after11_h : StableHlo.after hostOps1_1 X (Proc.devRef .tc main_v6) = X (Proc.devRef .tc main_v6) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The variance routine leaves the mean row alone. -/
theorem after11_mu : StableHlo.after hostOps1_1 X (Proc.devRef .tc main_v10) = X (Proc.devRef .tc main_v10) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first stretch leaves the column means of the logits in the mean row. -/
theorem after1_mu : StableHlo.after hostOps1 X (Proc.devRef .tc main_v10) = KTerm.muK (X (Proc.devRef .tc main_v6)) := by
  after_results; rfl

/-- The first stretch leaves the integer zero in the correction's buffer. -/
theorem after1_c : StableHlo.after hostOps1 X (Proc.devRef .tc main_c) = constantI S_ 32 0#32 := by
  after_results

end Stretches

section Stretches2

variable (X : Valuation τ sig (Elt F))

/-- The variance routine, run from contents whose correction buffer holds the integer zero, leaves the column
    variances of the logits in the variance row. -/
theorem after11_var (hc : X (Proc.devRef .tc main_c) = constantI S_ 32 0#32) :
    StableHlo.after hostOps1_1 X (Proc.devRef .tc main_v11) = KTerm.varK (X (Proc.devRef .tc main_v6)) := by
  after_results
  rw [hc]; rfl

end Stretches2

/-! ## The second launch's input arrays at its entry -/

/-- The logits at the second launch's entry are the first launch's output: no host operation in between writes
    that array. -/
theorem V4_h (c : Dev nD) : V4 m ρ c main_v6 = (dat0 (V1 m ρ) c).arrAt 7 cfg0.N :=
  calc V4 m ρ c main_v6
    _ = W3 m ρ c (Proc.devRef .tc main_v6) := after11_h _
    _ = W2 m ρ c (Proc.devRef .tc main_v6) := after1_h _
    _ = (dat0 (V1 m ρ) c).arrAt 7 cfg0.N := W2_arr m ρ c 7

/-- The mean row at the second launch's entry holds the column means of the logits. -/
theorem V4_mu (c : Dev nD) : V4 m ρ c main_v10 = KTerm.muK (V4 m ρ c main_v6) :=
  calc V4 m ρ c main_v10
    _ = W3 m ρ c (Proc.devRef .tc main_v10) := after11_mu _
    _ = KTerm.muK (W2 m ρ c (Proc.devRef .tc main_v6)) := after1_mu _
    _ = KTerm.muK (W3 m ρ c (Proc.devRef .tc main_v6)) := congrArg KTerm.muK (after1_h _).symm
    _ = KTerm.muK (V4 m ρ c main_v6) := congrArg KTerm.muK (after11_h _).symm

/-- The variance row at the second launch's entry holds the column variances of the logits. -/
theorem V4_var (c : Dev nD) : V4 m ρ c main_v11 = KTerm.varK (V4 m ρ c main_v6) :=
  calc V4 m ρ c main_v11
    _ = KTerm.varK (W3 m ρ c (Proc.devRef .tc main_v6)) := after11_var _ (after1_c _)
    _ = KTerm.varK (V4 m ρ c main_v6) := congrArg KTerm.varK (after11_h _).symm

/-! ## The first launch's input arrays at its entry -/

section Stretch0

variable (X : Valuation τ sig (Elt F))

/-- The first stretch writes no argument. -/
theorem after0_x : StableHlo.after hostOps0 X (Proc.devRef .tc main_arg0) = X (Proc.devRef .tc main_arg0) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Each weight array's sign pattern. -/
theorem after0_w1 : StableHlo.after hostOps0 X (Proc.devRef .tc main_v0) = Host.sign (X (Proc.devRef .tc main_arg1)) := by
  after_results
theorem after0_w2 : StableHlo.after hostOps0 X (Proc.devRef .tc main_v1) = Host.sign (X (Proc.devRef .tc main_arg3)) := by
  after_results
theorem after0_w3 : StableHlo.after hostOps0 X (Proc.devRef .tc main_v2) = Host.sign (X (Proc.devRef .tc main_arg5)) := by
  after_results
/-- Each bias vector as a one-row matrix. -/
theorem after0_b1 : StableHlo.after hostOps0 X (Proc.devRef .tc main_v3)
    = shapeCast S1x256 (X (Proc.devRef .tc main_arg2)) shapeCasts_S256_S1x256 := by
  after_results; rfl
theorem after0_b2 : StableHlo.after hostOps0 X (Proc.devRef .tc main_v4)
    = shapeCast S1x128 (X (Proc.devRef .tc main_arg4)) shapeCasts_S128_S1x128 := by
  after_results; rfl
theorem after0_b3 : StableHlo.after hostOps0 X (Proc.devRef .tc main_v5)
    = shapeCast S1x10 (X (Proc.devRef .tc main_arg6)) shapeCasts_S10_S1x10 := by
  after_results; rfl

end Stretch0

theorem V1_x (c : Dev nD) : V1 m ρ c main_arg0 = m ((c : Thread nD τ).loc main_arg0) := after0_x _
theorem V1_w1 (c : Dev nD) : V1 m ρ c main_v0 = Host.sign (m ((c : Thread nD τ).loc main_arg1)) := after0_w1 _
theorem V1_w2 (c : Dev nD) : V1 m ρ c main_v1 = Host.sign (m ((c : Thread nD τ).loc main_arg3)) := after0_w2 _
theorem V1_w3 (c : Dev nD) : V1 m ρ c main_v2 = Host.sign (m ((c : Thread nD τ).loc main_arg5)) := after0_w3 _
theorem V1_b1 (c : Dev nD) : V1 m ρ c main_v3
    = shapeCast S1x256 (m ((c : Thread nD τ).loc main_arg2)) shapeCasts_S256_S1x256 := after0_b1 _
theorem V1_b2 (c : Dev nD) : V1 m ρ c main_v4
    = shapeCast S1x128 (m ((c : Thread nD τ).loc main_arg4)) shapeCasts_S128_S1x128 := after0_b2 _
theorem V1_b3 (c : Dev nD) : V1 m ρ c main_v5
    = shapeCast S1x10 (m ((c : Thread nD τ).loc main_arg6)) shapeCasts_S10_S1x10 := after0_b3 _

end Cert.KernelIdeal.KRun

end
-- ==== Proof.Blocks0.lean ====
/-
  The first kernel launch, from blocks to the whole array.

  Grid point t of 32 reads rows 2048·t … 2048·t + 2047 of the input array and the six parameter arrays
  whole, and writes the same rows of the logits array. Whenever the body's value at row p, column q of its
  block is a function T of row p of the input block and of the six parameter arrays, the logits array after
  the launch holds, at row R, column q, that function of row R of the input array.
-/
import proofs.«143637_j89189290868841_1_alg».proof.Proof.Gen.KernelIdeal.Frame
import Idealize.ShloMosaic.Lib.Pipeline.Value
import Idealize.ShloMosaic.Lib.ValueIdx

noncomputable section

namespace Cert.KernelIdeal.Blocks0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The type of a row function: a row of 784 inputs and the six parameter arrays to a row of 10 logits. -/
abbrev RowFn := (Fin 784 → EReal) → (S256x784.Idx → EReal) → (S1x256.Idx → EReal) → (S128x256.Idx → EReal)
  → (S1x128.Idx → EReal) → (S10x128.Idx → EReal) → (S1x10.Idx → EReal) → Fin 10 → EReal

/-- The whole-array function: at (R, q), T of row R of the input and the parameter arrays. -/
def G (T : RowFn) (X : S65536x784.Idx → EReal) (a1 : S256x784.Idx → EReal) (a2 : S1x256.Idx → EReal) (a3 : S128x256.Idx → EReal)
    (a4 : S1x128.Idx → EReal) (a5 : S10x128.Idx → EReal) (a6 : S1x10.Idx → EReal) : S65536x10.Idx → EReal :=
  fun i => T (fun k => X (ix2 (i 0) k)) a1 a2 a3 a4 a5 a6 (i 1)

/-- The index maps over the grid: the row-block index of the input window and of the logits window is the
    point, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The input block at point t, row p, is row 2048·t + p of the input array. -/
theorem blk0 (c : Dev nD) (t : Fin cfg0.N) (p : Fin 2048) (k : Fin 784) :
    iblk0 V c 0 t (ix2 p k) = V c main_arg0 (ix2 (⟨2048 * t.val + p.val, by have := t.isLt; have h32 : cfg0.N = 32 := N_0; omega⟩ : Fin 65536) k) := by
  obtain ⟨e0, e1, -⟩ := idx_facts t
  show V c main_arg0 (((cfg0.win 0).blk t).view.emb (ix2 p k)) = _
  refine congrArg (V c main_arg0) ?_
  funext a; apply Fin.ext
  match a with
  | ⟨0, _⟩ => show win0_0.index t (0 : Fin 2) * 2048 + 1 * p.val = 2048 * t.val + p.val; omega
  | ⟨1, _⟩ => show win0_0.index t (1 : Fin 2) * 784 + 1 * k.val = k.val; omega

/-- The parameter blocks are the parameter arrays. -/
theorem blk1 (c : Dev nD) (t : Fin cfg0.N) : iblk0 V c 1 t = V c main_v0 := by
  obtain ⟨-, -, e0, e1, -⟩ := idx_facts t
  funext y
  show V c main_v0 (((cfg0.win 1).blk t).view.emb y) = _
  refine congrArg (V c main_v0) ?_
  funext a; apply Fin.ext
  match a with
  | ⟨0, _⟩ => show win0_1.index t (0 : Fin 2) * 256 + 1 * (y 0).val = (y 0).val; omega
  | ⟨1, _⟩ => show win0_1.index t (1 : Fin 2) * 784 + 1 * (y 1).val = (y 1).val; omega

theorem blk2 (c : Dev nD) (t : Fin cfg0.N) : iblk0 V c 2 t = V c main_v3 := by
  obtain ⟨-, -, -, -, e0, e1, -⟩ := idx_facts t
  funext y
  show V c main_v3 (((cfg0.win 2).blk t).view.emb y) = _
  refine congrArg (V c main_v3) ?_
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem blk3 (c : Dev nD) (t : Fin cfg0.N) : iblk0 V c 3 t = V c main_v1 := by
  obtain ⟨-, -, -, -, -, -, e0, e1, -⟩ := idx_facts t
  funext y
  show V c main_v1 (((cfg0.win 3).blk t).view.emb y) = _
  refine congrArg (V c main_v1) ?_
  funext a; apply Fin.ext
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem blk4 (c : Dev nD) (t : Fin cfg0.N) : iblk0 V c 4 t = V c main_v4 := by
  obtain ⟨-, -, -, -, -, -, -, -, e0, e1, -⟩ := idx_facts t
  funext y
  show V c main_v4 (((cfg0.win 4).blk t).view.emb y) = _
  refine congrArg (V c main_v4) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk5 (c : Dev nD) (t : Fin cfg0.N) : iblk0 V c 5 t = V c main_v2 := by
  obtain ⟨-, -, -, -, -, -, -, -, -, -, e0, e1, -⟩ := idx_facts t
  funext y
  show V c main_v2 (((cfg0.win 5).blk t).view.emb y) = _
  refine congrArg (V c main_v2) ?_
  funext a; apply Fin.ext
  match a with
  | ⟨0, _⟩ => show win0_5.index t (0 : Fin 2) * 10 + 1 * (y 0).val = (y 0).val; omega
  | ⟨1, _⟩ => show win0_5.index t (1 : Fin 2) * 128 + 1 * (y 1).val = (y 1).val; omega

theorem blk6 (c : Dev nD) (t : Fin cfg0.N) : iblk0 V c 6 t = V c main_v5 := by
  obtain ⟨-, -, -, -, -, -, -, -, -, -, -, -, e0, e1, -⟩ := idx_facts t
  funext y
  show V c main_v5 (((cfg0.win 6).blk t).view.emb y) = _
  refine congrArg (V c main_v5) ?_
  funext a; apply Fin.ext
  match a with
  | ⟨0, _⟩ => show win0_6.index t (0 : Fin 2) * 1 + 1 * (y 0).val = (y 0).val; omega
  | ⟨1, _⟩ => show win0_6.index t (1 : Fin 2) * 10 + 1 * (y 1).val = (y 1).val; omega

/-- What point t writes back is block t of the whole-array function. -/
theorem flushed_eq (T : RowFn)
    (hT : ∀ (x0 : Vec Ideal S2048x784 .f32) (x1 : Vec Ideal S256x784 .f32) (x2 : Vec Ideal S1x256 .f32) (x3 : Vec Ideal S128x256 .f32)
      (x4 : Vec Ideal S1x128 .f32) (x5 : Vec Ideal S10x128 .f32) (x6 : Vec Ideal S1x10 .f32) (p : Fin 2048) (q : Fin 10),
      k0_pay1 (F := Ideal) (k0_pay2 x0 x1 x2 x3 x4) (k0_pay3 x0 x1 x2 x3 x4) (k0_pay4 x0 x1 x2 x3 x4) x5 x6 (ix2 p q)
        = T (fun k => x0 (ix2 p k)) x1 x2 x3 x4 x5 x6 q)
    (c : Dev nD) (t : Fin cfg0.N) :
    (dat0 V c).flushed 7 t = ((cfg0.win 7).blk t).view.read (Elt Ideal)
      (G T (V c main_arg0) (V c main_v0) (V c main_v3) (V c main_v1) (V c main_v4) (V c main_v2) (V c main_v5)) := by
  show (cfg0.win 7).cut (grid0.coords t) ((dat0 V c).after 7 t) = _
  rw [after0_7]
  unfold out0_7
  rw [View.canon_unit_zero hz]
  simp only [View.ld_unit_zero (S := S2048x784) hz, View.ld_unit_zero (S := S256x784) hz, View.ld_unit_zero (S := S1x256) hz,
    View.ld_unit_zero (S := S128x256) hz, View.ld_unit_zero (S := S1x128) hz, View.ld_unit_zero (S := S10x128) hz,
    View.ld_unit_zero (S := S1x10) hz]
  obtain ⟨-, -, -, -, -, -, -, -, -, -, -, -, -, -, e0, e1⟩ := idx_facts t
  funext j
  obtain ⟨p, q, rfl⟩ : ∃ (p : Fin 2048) (q : Fin 10), j = ix2 p q := ⟨j 0, j 1, eq_ix2 j⟩
  show k0_pay1 (F := Ideal) (k0_pay2 (iblk0 V c 0 t) (iblk0 V c 1 t) (iblk0 V c 2 t) (iblk0 V c 3 t) (iblk0 V c 4 t))
      (k0_pay3 (iblk0 V c 0 t) (iblk0 V c 1 t) (iblk0 V c 2 t) (iblk0 V c 3 t) (iblk0 V c 4 t))
      (k0_pay4 (iblk0 V c 0 t) (iblk0 V c 1 t) (iblk0 V c 2 t) (iblk0 V c 3 t) (iblk0 V c 4 t))
      (iblk0 V c 5 t) (iblk0 V c 6 t) (ix2 p q)
    = G T (V c main_arg0) (V c main_v0) (V c main_v3) (V c main_v1) (V c main_v4) (V c main_v2) (V c main_v5)
        (((cfg0.win 7).blk t).view.emb (ix2 p q))
  refine (hT (iblk0 V c 0 t) (iblk0 V c 1 t) (iblk0 V c 2 t) (iblk0 V c 3 t) (iblk0 V c 4 t) (iblk0 V c 5 t) (iblk0 V c 6 t) p q).trans ?_
  rw [blk1, blk2, blk3, blk4, blk5, blk6]
  have hemb : ((cfg0.win 7).blk t).view.emb (ix2 p q)
      = ix2 (⟨2048 * t.val + p.val, by have := t.isLt; have h32 : cfg0.N = 32 := N_0; omega⟩ : Fin 65536) q := by
    funext a; apply Fin.ext
    match a with
    | ⟨0, _⟩ => show win0_7.index t (0 : Fin 2) * 2048 + 1 * p.val = 2048 * t.val + p.val; omega
    | ⟨1, _⟩ => show win0_7.index t (1 : Fin 2) * 10 + 1 * q.val = q.val; omega
  rw [hemb]
  show _ = T (fun k => V c main_arg0 (ix2 _ k)) (V c main_v0) (V c main_v3) (V c main_v1) (V c main_v4) (V c main_v2) (V c main_v5) q
  exact congrArg (fun f => T f (V c main_v0) (V c main_v3) (V c main_v1) (V c main_v4) (V c main_v2) (V c main_v5) q)
    (funext fun k => blk0 V c t p k)

/-- An index of the logits array is in point t's block iff each coordinate is in the block's range. -/
theorem mem_blk (t : Fin cfg0.N) (i : S65536x10.Idx) :
    i ∈ ((cfg0.win 7).blk t).view.set ↔ ∀ a : Fin 2, win0_7.index t a * S2048x10.size a ≤ (i a).val ∧ (i a).val < win0_7.index t a * S2048x10.size a + S2048x10.size a := by
  show i ∈ ((View.whole main_v6).slice (win0_7.rect t)).set ↔ _
  rw [View.set_slice_whole, Rect.mem_set_unit]
  exact Iff.rfl

/-- Every index of the logits array is in some point's block: row R is in block R / 2048. -/
theorem cover (i : S65536x10.Idx) : ∃ t : Fin cfg0.N, (cfg0.win 7).flush t = true ∧ i ∈ ((cfg0.win 7).blk t).view.set := by
  have hi0 : (i 0).val < 65536 := (i 0).isLt
  have hi1 : (i 1).val < 10 := (i 1).isLt
  have h32 : cfg0.N = 32 := N_0
  let t : Fin cfg0.N := ⟨(i 0).val / 2048, by omega⟩
  obtain ⟨-, -, -, -, -, -, -, -, -, -, -, -, -, -, e0, e1⟩ := idx_facts t
  refine ⟨t, flush0_7 t, ?_⟩
  rw [mem_blk]
  have ht : t.val = (i 0).val / 2048 := rfl
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 10 ≤ (i 1).val ∧ (i 1).val < win0_7.index t (1 : Fin 2) * 10 + 10; omega

/-- The logits array after the launch is the whole-array function of the arrays the launch found. -/
theorem final (T : RowFn)
    (hT : ∀ (x0 : Vec Ideal S2048x784 .f32) (x1 : Vec Ideal S256x784 .f32) (x2 : Vec Ideal S1x256 .f32) (x3 : Vec Ideal S128x256 .f32)
      (x4 : Vec Ideal S1x128 .f32) (x5 : Vec Ideal S10x128 .f32) (x6 : Vec Ideal S1x10 .f32) (p : Fin 2048) (q : Fin 10),
      k0_pay1 (F := Ideal) (k0_pay2 x0 x1 x2 x3 x4) (k0_pay3 x0 x1 x2 x3 x4) (k0_pay4 x0 x1 x2 x3 x4) x5 x6 (ix2 p q)
        = T (fun k => x0 (ix2 p k)) x1 x2 x3 x4 x5 x6 q)
    (c : Dev nD) :
    (dat0 V c).arrAt 7 cfg0.N
      = G T (V c main_arg0) (V c main_v0) (V c main_v3) (V c main_v1) (V c main_v4) (V c main_v2) (V c main_v5) :=
  (dat0 V c).arrAt_eq_of_cover 7 _ (fun t _ => flushed_eq V T hT c t) cover

end Cert.KernelIdeal.Blocks0

end
-- ==== Proof.Blocks1.lean ====
/-
  The second kernel launch, from blocks to the whole array.

  Grid point t of 32 reads rows 2048·t … 2048·t + 2047 of the logits array and the two one-row statistics
  arrays whole, and writes the same rows of the result. Whenever the body's value at row p, column q of its
  block is a function T of row p of the logits block and of the two statistics rows, the result array after
  the launch holds, at row R, column q, that function of row R of the logits array.
-/
import proofs.«143637_j89189290868841_1_alg».proof.Proof.Gen.KernelIdeal.Frame
import Idealize.ShloMosaic.Lib.Pipeline.Value
import Idealize.ShloMosaic.Lib.ValueIdx

noncomputable section

namespace Cert.KernelIdeal.Blocks1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function: at (R, q), T of row R of the logits and the statistics rows. -/
def G (T : (Fin 10 → EReal) → (S1x10.Idx → EReal) → (S1x10.Idx → EReal) → Fin 10 → EReal)
    (H : S65536x10.Idx → EReal) (mu var : S1x10.Idx → EReal) : S65536x10.Idx → EReal :=
  fun i => T (fun c' => H (ix2 (i 0) c')) mu var (i 1)

/-- The index maps over the grid: the row-block index of the logits window and of the result window is the
    point, every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The logits block at point t, row p, is row 2048·t + p of the logits array. -/
theorem blk0 (c : Dev nD) (t : Fin cfg1.N) (p : Fin 2048) (q : Fin 10) :
    iblk1 V c 0 t (ix2 p q) = V c main_v6 (ix2 (⟨2048 * t.val + p.val, by have := t.isLt; have h32 : cfg1.N = 32 := N_1; omega⟩ : Fin 65536) q) := by
  obtain ⟨e0, e1, -⟩ := idx_facts t
  show V c main_v6 (((cfg1.win 0).blk t).view.emb (ix2 p q)) = _
  refine congrArg (V c main_v6) ?_
  funext a; apply Fin.ext
  match a with
  | ⟨0, _⟩ => show win1_0.index t (0 : Fin 2) * 2048 + 1 * p.val = 2048 * t.val + p.val; omega
  | ⟨1, _⟩ => show win1_0.index t (1 : Fin 2) * 10 + 1 * q.val = q.val; omega

/-- The statistics blocks are the statistics arrays. -/
theorem blk1 (c : Dev nD) (t : Fin cfg1.N) : iblk1 V c 1 t = V c main_v10 := by
  obtain ⟨-, -, e0, e1, -⟩ := idx_facts t
  funext y
  show V c main_v10 (((cfg1.win 1).blk t).view.emb y) = _
  refine congrArg (V c main_v10) ?_
  funext a; apply Fin.ext
  match a with
  | ⟨0, _⟩ => show win1_1.index t (0 : Fin 2) * 1 + 1 * (y 0).val = (y 0).val; omega
  | ⟨1, _⟩ => show win1_1.index t (1 : Fin 2) * 10 + 1 * (y 1).val = (y 1).val; omega

theorem blk2 (c : Dev nD) (t : Fin cfg1.N) : iblk1 V c 2 t = V c main_v11 := by
  obtain ⟨-, -, -, -, e0, e1, -⟩ := idx_facts t
  funext y
  show V c main_v11 (((cfg1.win 2).blk t).view.emb y) = _
  refine congrArg (V c main_v11) ?_
  funext a; apply Fin.ext
  match a with
  | ⟨0, _⟩ => show win1_2.index t (0 : Fin 2) * 1 + 1 * (y 0).val = (y 0).val; omega
  | ⟨1, _⟩ => show win1_2.index t (1 : Fin 2) * 10 + 1 * (y 1).val = (y 1).val; omega

/-- What point t writes back is block t of the whole-array function. -/
theorem flushed_eq (T : (Fin 10 → EReal) → (S1x10.Idx → EReal) → (S1x10.Idx → EReal) → Fin 10 → EReal)
    (hT : ∀ (x0 : Vec Ideal S2048x10 .f32) (x1 x2 : Vec Ideal S1x10 .f32) (p : Fin 2048) (q : Fin 10),
      k1_pay1 (F := Ideal) x0 x1 x2 (ix2 p q) = T (fun c' => x0 (ix2 p c')) x1 x2 q)
    (c : Dev nD) (t : Fin cfg1.N) :
    (dat1 V c).flushed 3 t = ((cfg1.win 3).blk t).view.read (Elt Ideal) (G T (V c main_v6) (V c main_v10) (V c main_v11)) := by
  show (cfg1.win 3).cut (grid1.coords t) ((dat1 V c).after 3 t) = _
  rw [after1_3]
  unfold out1_3
  rw [View.canon_unit_zero hz]
  simp only [View.ld_unit_zero (S := S2048x10) hz, View.ld_unit_zero (S := S1x10) hz]
  obtain ⟨-, -, -, -, -, -, e0, e1⟩ := idx_facts t
  funext j
  obtain ⟨p, q, rfl⟩ : ∃ (p : Fin 2048) (q : Fin 10), j = ix2 p q := ⟨j 0, j 1, eq_ix2 j⟩
  show k1_pay1 (F := Ideal) (iblk1 V c 0 t) (iblk1 V c 1 t) (iblk1 V c 2 t) (ix2 p q)
    = G T (V c main_v6) (V c main_v10) (V c main_v11) (((cfg1.win 3).blk t).view.emb (ix2 p q))
  refine (hT (iblk1 V c 0 t) (iblk1 V c 1 t) (iblk1 V c 2 t) p q).trans ?_
  rw [blk1, blk2]
  have hemb : ((cfg1.win 3).blk t).view.emb (ix2 p q)
      = ix2 (⟨2048 * t.val + p.val, by have := t.isLt; have h32 : cfg1.N = 32 := N_1; omega⟩ : Fin 65536) q := by
    funext a; apply Fin.ext
    match a with
    | ⟨0, _⟩ => show win1_3.index t (0 : Fin 2) * 2048 + 1 * p.val = 2048 * t.val + p.val; omega
    | ⟨1, _⟩ => show win1_3.index t (1 : Fin 2) * 10 + 1 * q.val = q.val; omega
  rw [hemb]
  show _ = T (fun c' => V c main_v6 (ix2 _ c')) (V c main_v10) (V c main_v11) q
  exact congrArg (fun f => T f (V c main_v10) (V c main_v11) q) (funext fun c' => blk0 V c t p c')

/-- An index of the result array is in point t's block iff each coordinate is in the block's range. -/
theorem mem_blk (t : Fin cfg1.N) (i : S65536x10.Idx) :
    i ∈ ((cfg1.win 3).blk t).view.set ↔ ∀ a : Fin 2, win1_3.index t a * S2048x10.size a ≤ (i a).val ∧ (i a).val < win1_3.index t a * S2048x10.size a + S2048x10.size a := by
  show i ∈ ((View.whole main_v12).slice (win1_3.rect t)).set ↔ _
  rw [View.set_slice_whole, Rect.mem_set_unit]
  exact Iff.rfl

/-- Every index of the result array is in some point's block: row R is in block R / 2048. -/
theorem cover (i : S65536x10.Idx) : ∃ t : Fin cfg1.N, (cfg1.win 3).flush t = true ∧ i ∈ ((cfg1.win 3).blk t).view.set := by
  have hi0 : (i 0).val < 65536 := (i 0).isLt
  have hi1 : (i 1).val < 10 := (i 1).isLt
  have h32 : cfg1.N = 32 := N_1
  let t : Fin cfg1.N := ⟨(i 0).val / 2048, by omega⟩
  obtain ⟨-, -, -, -, -, -, e0, e1⟩ := idx_facts t
  refine ⟨t, flush1_3 t, ?_⟩
  rw [mem_blk]
  have ht : t.val = (i 0).val / 2048 := rfl
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 10 ≤ (i 1).val ∧ (i 1).val < win1_3.index t (1 : Fin 2) * 10 + 10; omega

/-- The result array after the launch is the whole-array function of the arrays the launch found. -/
theorem final (T : (Fin 10 → EReal) → (S1x10.Idx → EReal) → (S1x10.Idx → EReal) → Fin 10 → EReal)
    (hT : ∀ (x0 : Vec Ideal S2048x10 .f32) (x1 x2 : Vec Ideal S1x10 .f32) (p : Fin 2048) (q : Fin 10),
      k1_pay1 (F := Ideal) x0 x1 x2 (ix2 p q) = T (fun c' => x0 (ix2 p c')) x1 x2 q)
    (c : Dev nD) :
    (dat1 V c).arrAt 3 cfg1.N = G T (V c main_v6) (V c main_v10) (V c main_v11) :=
  (dat1 V c).arrAt_eq_of_cover 3 (G T (V c main_v6) (V c main_v10) (V c main_v11)) (fun t _ => flushed_eq V T hT c t) cover

end Cert.KernelIdeal.Blocks1

end
-- ==== Proof.Spec.lean ====
/-
  The function both programs compute, one batch row at a time, on the extended reals.

  A row x of 784 inputs goes through three binarized linear layers: layer ℓ maps a row a to the row
  j ↦ Σ_k a_k · sign(W_ℓ[j,k]) + b_ℓ[j]; between layers the row is clipped to [-1, 1] and replaced by its sign.
  The resulting row of 10 logits is normalized column by column with the batch statistics μ and σ²
  (as (h − μ) · (σ² + ε)^(-1/2)), and the row-wise log-softmax is taken: with M the row maximum,
  s_c = n_c − M, the result is s_q − log Σ_c exp s_c.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float words the two programs share, as extended reals: −1, 1, the ε of the normalization, −∞. -/
def negOne : EReal := Ideal.ofBits .f32 0xBF800000#32
def one : EReal := Ideal.ofBits .f32 0x3F800000#32
def eps : EReal := Ideal.ofBits .f32 0x3727C5AC#32
def negInf : EReal := Ideal.ofBits .f32 0xFF800000#32

/-- The clip to [-1, 1]: min(1, max(-1, v)). -/
def clip1 (v : EReal) : EReal := min one (max negOne v)

/-- The activation between layers: the sign of the clipped value. -/
def act (v : EReal) : EReal := Ideal.sign (clip1 v)

/-- One binarized linear layer on a row: j ↦ Σ_k a_k · sign(W[j,k]) + b_j. -/
def linRow {K N : ℕ} (a : Fin K → EReal) (W : (⟨2, ![N, K]⟩ : Shape).Idx → EReal) (b : Fin N → EReal) (j : Fin N) : EReal :=
  (∑ k : Fin K, a k * Ideal.sign (W (ix2 j k))) + b j

/-- The three layers on a row of 784 inputs: the row of 10 logits. -/
def logitsRow (W1 : (⟨2, ![256, 784]⟩ : Shape).Idx → EReal) (b1 : Fin 256 → EReal)
    (W2 : (⟨2, ![128, 256]⟩ : Shape).Idx → EReal) (b2 : Fin 128 → EReal)
    (W3 : (⟨2, ![10, 128]⟩ : Shape).Idx → EReal) (b3 : Fin 10 → EReal) (xr : Fin 784 → EReal) (q : Fin 10) : EReal :=
  linRow (fun k => act (linRow (fun k' => act (linRow xr W1 b1 k')) W2 b2 k)) W3 b3 q

/-- The normalization of a row of logits by the batch statistics, kept as one-row matrices:
    c ↦ (row_c − μ_c) · (σ²_c + ε)^(-1/2). -/
def normRow (row : Fin 10 → EReal) (mu var : (⟨2, ![1, 10]⟩ : Shape).Idx → EReal) (c : Fin 10) : EReal :=
  (row c - mu (ix2 (0 : Fin 1) c)) * Ideal.rsqrt (var (ix2 (0 : Fin 1) c) + eps)

/-- The maximum of a row of 10 (from −∞). -/
def rowMax (n : Fin 10 → EReal) : EReal := (Finset.univ : Finset (Fin 10)).fold max negInf n

/-- The log-softmax of a row of 10: with s_c = n_c − max n, q ↦ s_q − log Σ_c exp s_c. -/
def lsmRow (n : Fin 10 → EReal) (q : Fin 10) : EReal :=
  (n q - rowMax n) - Ideal.log (∑ c : Fin 10, Ideal.exp (n c - rowMax n))

/-- Normalization, then log-softmax. -/
def tailRow (row : Fin 10 → EReal) (mu var : (⟨2, ![1, 10]⟩ : Shape).Idx → EReal) (q : Fin 10) : EReal :=
  lsmRow (normRow row mu var) q

end Cert.Spec

end
-- ==== Proof.LibDotRows.lean ====
/-
  A matrix product whose right operand is contracted on its LAST axis (A · Bᵀ for an m×k matrix A and an n×k
  matrix B), accumulated into a zero splat and read at an index on the extended reals:
  (A · Bᵀ)[a, b] = Σ_c A[a, c] · B[b, c].
-/
import Idealize.ShloMosaic.PureOps.Ideal.Laws
import Idealize.ShloMosaic.Lib.ValueIdx

noncomputable section

namespace Cert.LibDotRows

open Idealize.ShloMosaic Idealize.ShloMosaic.ValueIdx

/-- The product with the right operand contracted on its last axis, into the zero accumulator, at (a, b):
    the sum over the contracted coordinate of the products of the two rows' entries. -/
theorem matmul_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibDotRows

end
-- ==== Proof.LayersK.lean ====
/-
  The first kernel body, read at an index.

  On its block of 2048 rows the body computes, for row p, three times: the product of the current row with the
  (already binarized) weight matrix contracted on its last axis, plus the one-row bias; between the products the
  clip to [-1, 1] and the sign (written as "1.0 with the argument's sign where |argument| > 0, else the argument").
  Read at (p, q) that is the row function rowK of row p of the input block.
-/
import proofs.«143637_j89189290868841_1_alg».proof.Proof.Gen.KernelIdeal.Skeleton
import proofs.«143637_j89189290868841_1_alg».proof.Proof.Spec
import proofs.«143637_j89189290868841_1_alg».proof.Proof.LibDotRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayersK

open Cert.KernelIdeal Cert.KernelIdeal.Gen Idealize.ShloMosaic Idealize.ShloMosaic.ValueIdx Cert.Spec

/-- One linear layer on a row, over weights that are already signs and a one-row bias:
    j ↦ Σ_k a_k · sW[j,k] + b[0,j]. -/
def linS {K N : ℕ} (a : Fin K → EReal) (sW : (⟨2, ![N, K]⟩ : Shape).Idx → EReal) (b : (⟨2, ![1, N]⟩ : Shape).Idx → EReal)
    (j : Fin N) : EReal :=
  (∑ k : Fin K, a k * sW (ix2 j k)) + b (ix2 (0 : Fin 1) j)

/-- The three layers on a row of 784 inputs. -/
def rowK (xr : Fin 784 → EReal) (x1 : S256x784.Idx → EReal) (x2 : S1x256.Idx → EReal) (x3 : S128x256.Idx → EReal)
    (x4 : S1x128.Idx → EReal) (x5 : S10x128.Idx → EReal) (x6 : S1x10.Idx → EReal) (q : Fin 10) : EReal :=
  linS (fun k => act (linS (fun k' => act (linS xr x1 x2 k')) x3 x4 k)) x5 x6 q

/-- A product with the right operand contracted on its last axis, plus a one-row bias laid along every row. -/
theorem lin_apply {m k n : ℕ} (A : FVec Ideal ⟨2, ![m, k]⟩ .bf16) (w : FVec Ideal ⟨2, ![n, k]⟩ .f32) (b : FVec Ideal ⟨2, ![1, n]⟩ .f32)
    (hb : FTy.bits .bf16 < FTy.bits .f32) (hw : (⟨2, ![n, k]⟩ : Shape).ShapeCasts ⟨2, ![n, k]⟩)
    (hbs : (⟨2, ![1, n]⟩ : Shape).ShapeCasts ⟨2, ![1, n]⟩) (hbc : (⟨2, ![1, n]⟩ : Shape).Broadcasts ⟨2, ![m, n]⟩)
    (p : Fin m) (j : Fin n) :
    addf (matmul (DotDims.transposedRhs m k n) none A (truncf .bf16 (shapeCast ⟨2, ![n, k]⟩ w hw) hb)
        (constant ⟨2, ![m, n]⟩ .f32 0x00000000#32))
      (broadcastTo ⟨2, ![m, n]⟩ (shapeCast ⟨2, ![1, n]⟩ b hbs) hbc) (ix2 p j)
    = linS (fun c => A (ix2 p c)) w b j := by
  show matmul (DotDims.transposedRhs m k n) none A (truncf .bf16 (shapeCast ⟨2, ![n, k]⟩ w hw) hb)
        (constant ⟨2, ![m, n]⟩ .f32 0x00000000#32) (ix2 p j)
      + broadcastTo ⟨2, ![m, n]⟩ (shapeCast ⟨2, ![1, n]⟩ b hbs) hbc (ix2 p j) = _
  rw [Cert.LibDotRows.matmul_transposedRhs_apply, broadcastTo_1b_ab_apply, shapeCast_self, shapeCast_self]
  rfl

/-- The clip as the body writes it. -/
def clipK {S : Shape} (h : FVec Ideal S .f32) : FVec Ideal S .f32 :=
  minimumf (broadcast S (Scalar.ofBits .f32 0x3F800000#32)) (maximumf (broadcast S (Scalar.ofBits .f32 0xBF800000#32)) h)

theorem clipK_apply {S : Shape} (h : FVec Ideal S .f32) (i : S.Idx) : clipK h i = clip1 (h i) := rfl

/-- The sign as the body writes it. -/
def sgnK {S : Shape} (v : FVec Ideal S .f32) : FVec Ideal S .f32 :=
  select (cmpf .ogt (absf v) (broadcast S (Scalar.ofBits .f32 0x00000000#32)))
    (select (cmpf .olt v (constant S .f32 0x00000000#32)) (constant S .f32 0xBF800000#32) (constant S .f32 0x3F800000#32)) v

theorem sgnK_apply {S : Shape} (v : FVec Ideal S .f32) (i : S.Idx) : sgnK v i = Ideal.sign (v i) :=
  Ideal.jnp_sign_eq_sign_f32 (v i)

/-- The three products of the body, each over the generated dimension record. -/
def h1K (x0 : Vec Ideal S2048x784 .f32) (x1 : Vec Ideal S256x784 .f32) (x2 : Vec Ideal S1x256 .f32) : FVec Ideal S2048x256 .f32 :=
  addf (matmul dot_S2048x784_S256x784_S2048x256_1_1_0_0_n_n none (truncf .bf16 x0 bitsLt_bf16_f32)
      (truncf .bf16 (shapeCast S256x784 x1 shapeCasts_S256x784_S256x784) bitsLt_bf16_f32) (constant S2048x256 .f32 0x00000000#32))
    (broadcastTo S2048x256 (shapeCast S1x256 x2 shapeCasts_S1x256_S1x256) broadcasts_S1x256_S2048x256)

def h2K (a : FVec Ideal S2048x256 .f32) (x3 : Vec Ideal S128x256 .f32) (x4 : Vec Ideal S1x128 .f32) : FVec Ideal S2048x128 .f32 :=
  addf (matmul dot_S2048x256_S128x256_S2048x128_1_1_0_0_n_n none (truncf .bf16 a bitsLt_bf16_f32)
      (truncf .bf16 (shapeCast S128x256 x3 shapeCasts_S128x256_S128x256) bitsLt_bf16_f32) (constant S2048x128 .f32 0x00000000#32))
    (broadcastTo S2048x128 (shapeCast S1x128 x4 shapeCasts_S1x128_S1x128) broadcasts_S1x128_S2048x128)

def h3K (a : FVec Ideal S2048x128 .f32) (x5 : Vec Ideal S10x128 .f32) (x6 : Vec Ideal S1x10 .f32) : FVec Ideal S2048x10 .f32 :=
  addf (matmul dot_S2048x128_S10x128_S2048x10_1_1_0_0_n_n none (truncf .bf16 a bitsLt_bf16_f32)
      (truncf .bf16 (shapeCast S10x128 x5 shapeCasts_S10x128_S10x128) bitsLt_bf16_f32) (constant S2048x10 .f32 0x00000000#32))
    (broadcastTo S2048x10 (shapeCast S1x10 x6 shapeCasts_S1x10_S1x10) broadcasts_S1x10_S2048x10)

/-- The payloads are those compositions. -/
theorem pay2_eq (x0 : Vec Ideal S2048x784 .f32) (x1 : Vec Ideal S256x784 .f32) (x2 : Vec Ideal S1x256 .f32)
    (x3 : Vec Ideal S128x256 .f32) (x4 : Vec Ideal S1x128 .f32) :
    k0_pay2 (F := Ideal) x0 x1 x2 x3 x4 = clipK (h2K (sgnK (clipK (h1K x0 x1 x2))) x3 x4) := rfl

theorem pay1_eq (x0 : Vec Ideal S2048x784 .f32) (x1 : Vec Ideal S256x784 .f32) (x2 : Vec Ideal S1x256 .f32)
    (x3 : Vec Ideal S128x256 .f32) (x4 : Vec Ideal S1x128 .f32) (x5 : Vec Ideal S10x128 .f32) (x6 : Vec Ideal S1x10 .f32) :
    k0_pay1 (F := Ideal) (k0_pay2 x0 x1 x2 x3 x4) (k0_pay3 x0 x1 x2 x3 x4) (k0_pay4 x0 x1 x2 x3 x4) x5 x6
      = h3K (sgnK (k0_pay2 (F := Ideal) x0 x1 x2 x3 x4)) x5 x6 := rfl

theorem h1K_apply (x0 : Vec Ideal S2048x784 .f32) (x1 : Vec Ideal S256x784 .f32) (x2 : Vec Ideal S1x256 .f32)
    (p : Fin 2048) (j : Fin 256) : h1K x0 x1 x2 (ix2 p j) = linS (fun c => x0 (ix2 p c)) x1 x2 j :=
  lin_apply (m := 2048) (k := 784) (n := 256) (truncf .bf16 x0 bitsLt_bf16_f32) x1 x2 _ _ _ _ p j

theorem h2K_apply (a : FVec Ideal S2048x256 .f32) (x3 : Vec Ideal S128x256 .f32) (x4 : Vec Ideal S1x128 .f32)
    (p : Fin 2048) (j : Fin 128) : h2K a x3 x4 (ix2 p j) = linS (fun c => a (ix2 p c)) x3 x4 j :=
  lin_apply (m := 2048) (k := 256) (n := 128) (truncf .bf16 a bitsLt_bf16_f32) x3 x4 _ _ _ _ p j

theorem h3K_apply (a : FVec Ideal S2048x128 .f32) (x5 : Vec Ideal S10x128 .f32) (x6 : Vec Ideal S1x10 .f32)
    (p : Fin 2048) (j : Fin 10) : h3K a x5 x6 (ix2 p j) = linS (fun c => a (ix2 p c)) x5 x6 j :=
  lin_apply (m := 2048) (k := 128) (n := 10) (truncf .bf16 a bitsLt_bf16_f32) x5 x6 _ _ _ _ p j

/-- THE BODY AT AN INDEX: row p, column q of the stored block is the row function of row p of the input block. -/
theorem body_apply (x0 : Vec Ideal S2048x784 .f32) (x1 : Vec Ideal S256x784 .f32) (x2 : Vec Ideal S1x256 .f32)
    (x3 : Vec Ideal S128x256 .f32) (x4 : Vec Ideal S1x128 .f32) (x5 : Vec Ideal S10x128 .f32) (x6 : Vec Ideal S1x10 .f32)
    (p : Fin 2048) (q : Fin 10) :
    k0_pay1 (F := Ideal) (k0_pay2 x0 x1 x2 x3 x4) (k0_pay3 x0 x1 x2 x3 x4) (k0_pay4 x0 x1 x2 x3 x4) x5 x6 (ix2 p q)
      = rowK (fun k => x0 (ix2 p k)) x1 x2 x3 x4 x5 x6 q := by
  rw [pay1_eq, h3K_apply]
  unfold rowK
  refine congrArg (fun f => linS f x5 x6 q) (funext fun k => ?_)
  rw [sgnK_apply, pay2_eq, clipK_apply, h2K_apply]
  show Ideal.sign (clip1 _) = Ideal.sign (clip1 _)
  refine congrArg (fun f => Ideal.sign (clip1 (linS f x3 x4 k))) (funext fun k' => ?_)
  rw [sgnK_apply, clipK_apply, h1K_apply]
  rfl

end Cert.KernelIdeal.LayersK

end
-- ==== Proof.TailK.lean ====
/-
  The kernel's second body (the normalization by the batch statistics, then the row-wise log-softmax) read at an
  index. With x0 the block of logits (2048 rows of 10) and x1, x2 the one-row matrices μ and σ², the body computes
    n = (x0 − μ) · (σ² + ε)^(-1/2),   then   n − max_row n − log Σ_row exp (n − max_row n),
  the row maximum and the row sum each taken as a reduction over axis 1, kept as a column and spread back over the
  row. At (p, q) the result is the row function tailRow of row p of x0 with μ and σ².
-/
import proofs.«143637_j89189290868841_1_alg».proof.Proof.Gen.KernelIdeal.Skeleton
import proofs.«143637_j89189290868841_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TailK

open Cert.KernelIdeal Cert.KernelIdeal.Gen Idealize.ShloMosaic Idealize.ShloMosaic.ValueIdx

/-! ## The elementwise operations and the layout operations read at an index -/

theorem rsqrt_apply {s : Shape} (x : FVec Ideal s .f32) (i : s.Idx) : rsqrt x i = Ideal.rsqrt (x i) := rfl
theorem exp_apply {s : Shape} (x : FVec Ideal s .f32) (i : s.Idx) : exp x i = Ideal.exp (x i) := rfl
theorem log_apply {s : Shape} (x : FVec Ideal s .f32) (i : s.Idx) : log x i = Ideal.log (x i) := rfl

/-- The index over row p of a 2048 × 10 block with coordinate k inserted on the reduced axis 1 is (p, k). -/
theorem lift_row (hr : S2048x10.Reduces [1] S2048) (p : Fin 2048) (k : Fin (S2048x10.size 1)) :
    hr.lift (ix1 p) k = ix2 p (⟨k.val, k.isLt⟩ : Fin 10) := by
  funext c; apply Fin.ext
  fin_cases c <;> rfl

/-- A vector of 2048 cast to a one-column matrix, read at (p, 0), is entry p. -/
theorem cast_col_apply {α : Type} (y : S2048.Idx → α) (p : Fin 2048) (u : Fin 1) :
    shapeCast S2048x1 y shapeCasts_S2048_S2048x1 (ix2 p u) = y (ix1 p) :=
  shapeCast_apply y shapeCasts_S2048_S2048x1 (ix2 p u) (ix1 p) (by
    have hu : u.val = 0 := by omega
    rw [Shape.rowMajor_val_one, Shape.rowMajor_val_two]
    show p.val = p.val * 1 + u.val
    omega)

/-- A one-column matrix spread over the 10 columns, read at (p, c), is the column at (p, 0). -/
theorem bcast_cols_apply {α : Type} (y : S2048x1.Idx → α) (p : Fin 2048) (c : Fin 10) :
    broadcastTo S2048x10 y broadcasts_S2048x1_S2048x10 (ix2 p c) = y (ix2 p (0 : Fin 1)) := by
  refine broadcastTo_apply y broadcasts_S2048x1_S2048x10 (ix2 p c) (ix2 p (0 : Fin 1)) fun a => ?_
  match a with
  | ⟨0, _⟩ =>
    show p.val = if (2048 : ℕ) = 1 then 0 else p.val
    simp
  | ⟨1, _⟩ =>
    show (0 : ℕ) = if (1 : ℕ) = 1 then 0 else c.val
    simp

/-! ## The normalization -/

/-- The normalized block, as the body spells it. -/
def nrm (x0 : Vec Ideal S2048x10 .f32) (x1 x2 : Vec Ideal S1x10 .f32) : FVec Ideal S2048x10 .f32 :=
  mulf (subf (shapeCast S2048x10 x0 shapeCasts_S2048x10_S2048x10)
      (broadcastTo S2048x10 (shapeCast S1x10 x1 shapeCasts_S1x10_S1x10) broadcasts_S1x10_S2048x10))
    (broadcastTo S2048x10
      (rsqrt (addf (shapeCast S1x10 x2 shapeCasts_S1x10_S1x10) (broadcast S1x10 (Scalar.ofBits .f32 0x3727C5AC#32))))
      broadcasts_S1x10_S2048x10)

/-- At (p, c) it is the row function's (x0 − μ) · (σ² + ε)^(-1/2). -/
theorem nrm_apply (x0 : Vec Ideal S2048x10 .f32) (x1 x2 : Vec Ideal S1x10 .f32) (p : Fin 2048) (c : Fin 10) :
    nrm x0 x1 x2 (ix2 p c) = Cert.Spec.normRow (fun c => x0 (ix2 p c)) x1 x2 c := by
  unfold nrm Cert.Spec.normRow
  rw [mulf_apply, subf_apply, broadcastTo_1b_ab_apply, broadcastTo_1b_ab_apply, shapeCast_self, shapeCast_self,
    rsqrt_apply, addf_apply, shapeCast_self]
  rfl

/-! ## The row maximum, the row sum, the log-softmax -/

/-- The row maximum kept as a column and spread back over the row, as the body spells it. -/
def rmaxK (n : FVec Ideal S2048x10 .f32) : FVec Ideal S2048x10 .f32 :=
  broadcastTo S2048x10
    (shapeCast S2048x1 (multiReduction .maximumf [1] S2048 n 0xFF800000#32 reduces_S2048x10_S2048 (.inl rfl) rfl)
      shapeCasts_S2048_S2048x1)
    broadcasts_S2048x1_S2048x10

/-- At (p, c) it is the maximum (from −∞) of row p. -/
theorem rmaxK_apply (n : FVec Ideal S2048x10 .f32) (p : Fin 2048) (c : Fin 10) :
    rmaxK n (ix2 p c) = Cert.Spec.rowMax (fun k => n (ix2 p k)) := by
  unfold rmaxK
  rw [bcast_cols_apply, cast_col_apply]
  refine (Ideal.multiReduction_maximumf_single n _ reduces_S2048x10_S2048 (.inl rfl) rfl (ix1 p)).trans ?_
  have hf : (n ∘ reduces_S2048x10_S2048.lift (ix1 p)) = fun k : Fin 10 => n (ix2 p k) :=
    funext fun k => congrArg n (lift_row reduces_S2048x10_S2048 p k)
  rw [hf]
  rfl

/-- The log-softmax of a block, as the body spells it. -/
def lsmK (n : FVec Ideal S2048x10 .f32) : FVec Ideal S2048x10 .f32 :=
  subf (subf n (rmaxK n))
    (broadcastTo S2048x10
      (log (shapeCast S2048x1
        (multiReduction .add [1] S2048 (exp (subf n (rmaxK n))) 0x00000000#32 reduces_S2048x10_S2048 (.inl rfl) rfl)
        shapeCasts_S2048_S2048x1))
      broadcasts_S2048x1_S2048x10)

/-- At (p, q) it is the row function's log-softmax of row p. -/
theorem lsmK_apply (n : FVec Ideal S2048x10 .f32) (p : Fin 2048) (q : Fin 10) :
    lsmK n (ix2 p q) = Cert.Spec.lsmRow (fun k => n (ix2 p k)) q := by
  unfold lsmK Cert.Spec.lsmRow
  rw [subf_apply, subf_apply, rmaxK_apply, bcast_cols_apply, log_apply, cast_col_apply]
  refine congrArg (fun t => (n (ix2 p q) - Cert.Spec.rowMax (fun k => n (ix2 p k))) - Ideal.log t) ?_
  refine (Ideal.multiReduction_add_single _ _ reduces_S2048x10_S2048 (.inl rfl) rfl (ix1 p)).trans ?_
  show ∑ k : Fin 10, exp (subf n (rmaxK n)) (reduces_S2048x10_S2048.lift (ix1 p) k) = _
  refine Finset.sum_congr rfl fun k _ => ?_
  rw [lift_row reduces_S2048x10_S2048 p k, exp_apply, subf_apply, rmaxK_apply]

/-! ## The body -/

/-- The body is the log-softmax of the normalized block: the same term, its stages named. -/
theorem k1_pay1_eq (x0 : Vec Ideal S2048x10 .f32) (x1 x2 : Vec Ideal S1x10 .f32) :
    Gen.k1_pay1 (F := Ideal) x0 x1 x2 = lsmK (nrm x0 x1 x2) := rfl

theorem k1_tail (x0 : Vec Ideal S2048x10 .f32) (x1 x2 : Vec Ideal S1x10 .f32) (p : Fin 2048) (q : Fin 10) :
    Gen.k1_pay1 (F := Ideal) x0 x1 x2 (ix2 p q) = Cert.Spec.tailRow (fun c => x0 (ix2 p c)) x1 x2 q := by
  rw [k1_pay1_eq, lsmK_apply]
  unfold Cert.Spec.tailRow
  exact congrArg (fun n => Cert.Spec.lsmRow n q) (funext fun k => nrm_apply x0 x1 x2 p k)

end Cert.KernelIdeal.TailK

end
-- ==== Proof.RefTerm.lean ====
/-
  The reference's result as ONE pure term of its seven argument arrays, cut into named stages: a binarized
  linear layer (x · sign-binarized(W)ᵀ + b), the clip to [-1, 1], the batch statistics (mean and biased
  variance down the batch axis), the normalization by the square root of the variance plus ε, and the
  row-wise log-softmax. Each stage is the composition of the reference's host operations in program order.
-/
import proofs.«143637_j89189290868841_1_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The straight-through binarization t + (sign t − t). -/
def binz {S : Shape} (t : FVec F S .f32) : FVec F S .f32 := addf t (subf (Host.sign t) t)

/-- Layer 1 before the clip: x · binz(w1)ᵀ + b1. -/
def lin1 (x : FVec F S65536x784 .f32) (w1 : FVec F S256x784 .f32) (b1 : FVec F S256 .f32) : FVec F S65536x256 .f32 :=
  addf (Host.dotGeneral dot_S65536x784_S784x256_S65536x256_1_0_0_1_n_n none x
      (transpose S784x256 [1, 0] (binz w1) transposes_S256x784_S784x256_1_0))
    (broadcastInDim S65536x256 ![0, 1] bcast_S1x256_S65536x256_0_1 (broadcastInDim S1x256 ![1] bcast_S256_S1x256_1 b1))

/-- The clip to [-1, 1] on 256 columns: min(1, max(-1, h)). -/
def clipA (h : FVec F S65536x256 .f32) : FVec F S65536x256 .f32 :=
  minimumf (broadcastInDim S65536x256 ![] bcast_S_S65536x256 (id (constant S_ .f32 0x3F800000#32)))
    (maximumf (broadcastInDim S65536x256 ![] bcast_S_S65536x256 (id (constant S_ .f32 0xBF800000#32))) h)

/-- Layer 2 before the clip: a · binz(w2)ᵀ + b2. -/
def lin2 (a : FVec F S65536x256 .f32) (w2 : FVec F S128x256 .f32) (b2 : FVec F S128 .f32) : FVec F S65536x128 .f32 :=
  addf (Host.dotGeneral dot_S65536x256_S256x128_S65536x128_1_0_0_1_n_n none a
      (transpose S256x128 [1, 0] (binz w2) transposes_S128x256_S256x128_1_0))
    (broadcastInDim S65536x128 ![0, 1] bcast_S1x128_S65536x128_0_1 (broadcastInDim S1x128 ![1] bcast_S128_S1x128_1 b2))

/-- The clip to [-1, 1] on 128 columns. -/
def clipB (h : FVec F S65536x128 .f32) : FVec F S65536x128 .f32 :=
  minimumf (broadcastInDim S65536x128 ![] bcast_S_S65536x128 (id (constant S_ .f32 0x3F800000#32)))
    (maximumf (broadcastInDim S65536x128 ![] bcast_S_S65536x128 (id (constant S_ .f32 0xBF800000#32))) h)

/-- Layer 3: a · binz(w3)ᵀ + b3. -/
def lin3 (a : FVec F S65536x128 .f32) (w3 : FVec F S10x128 .f32) (b3 : FVec F S10 .f32) : FVec F S65536x10 .f32 :=
  addf (Host.dotGeneral dot_S65536x128_S128x10_S65536x10_1_0_0_1_n_n none a
      (transpose S128x10 [1, 0] (binz w3) transposes_S10x128_S128x10_1_0))
    (broadcastInDim S65536x10 ![0, 1] bcast_S1x10_S65536x10_0_1 (broadcastInDim S1x10 ![1] bcast_S10_S1x10_1 b3))

/-- The three layers: the pre-normalization logits. -/
def logits (x : FVec F S65536x784 .f32) (w1 : FVec F S256x784 .f32) (b1 : FVec F S256 .f32) (w2 : FVec F S128x256 .f32)
    (b2 : FVec F S128 .f32) (w3 : FVec F S10x128 .f32) (b3 : FVec F S10 .f32) : FVec F S65536x10 .f32 :=
  lin3 (binz (clipB (lin2 (binz (clipA (lin1 x w1 b1))) w2 b2))) w3 b3

/-- The column means, kept as a row: (Σ over the batch) / 65536. -/
def muOf (h : FVec F S65536x10 .f32) : FVec F S1x10 .f32 :=
  Host.divf (broadcastInDim S1x10 ![1] bcast_S10_S1x10_1 (Host.reduceAdd h (constant S_ .f32 0x00000000#32) reducesTo_S65536x10_S10_d0 h_S_))
    (broadcastInDim S1x10 ![] bcast_S_S1x10 (constant S_ .f32 0x47800000#32))

/-- The number of rows minus the (zero) degrees-of-freedom correction, as a float scalar. -/
def dofOf : FVec F S_ .f32 := subf (constant S_ .f32 0x47800000#32) (sitofp .f32 (constantI S_ 32 0#32))

/-- The column variances, kept as a row: the mean of the squared deviations, selected against the
    "count is positive" test as the library routine writes it. -/
def varOf (h : FVec F S65536x10 .f32) : FVec F S1x10 .f32 :=
  select (broadcastInDim S1x10 ![] bcast_S_S1x10 (cmpf .ogt (dofOf (F := F)) (constant S_ .f32 0x00000000#32)))
    (Host.divf
      (broadcastInDim S1x10 ![1] bcast_S10_S1x10_1
        (Host.reduceAdd
          (mulf (subf h (broadcastInDim S65536x10 ![0, 1] bcast_S1x10_S65536x10_0_1 (muOf h)))
            (subf h (broadcastInDim S65536x10 ![0, 1] bcast_S1x10_S65536x10_0_1 (muOf h))))
          (constant S_ .f32 0x00000000#32) reducesTo_S65536x10_S10_d0 h_S_))
      (broadcastInDim S1x10 ![] bcast_S_S1x10 (dofOf (F := F))))
    (broadcastInDim S1x10 ![] bcast_S_S1x10 (id (constant S_ .f32 0x7FC00000#32)))

/-- The normalization: (h − μ) / √(σ² + ε). -/
def normOf (h : FVec F S65536x10 .f32) : FVec F S65536x10 .f32 :=
  Host.divf (subf h (broadcastInDim S65536x10 ![0, 1] bcast_S1x10_S65536x10_0_1 (muOf h)))
    (broadcastInDim S65536x10 ![0, 1] bcast_S1x10_S65536x10_0_1
      (Host.sqrt (addf (varOf h) (broadcastInDim S1x10 ![] bcast_S_S1x10 (constant S_ .f32 0x3727C5AC#32)))))

/-- The row maximum (against −∞), kept as a column and spread back over the row. -/
def rowMax (z : FVec F S65536x10 .f32) : FVec F S65536x10 .f32 :=
  broadcastInDim S65536x10 ![0, 1] bcast_S65536x1_S65536x10_0_1
    (broadcastInDim S65536x1 ![0] bcast_S65536_S65536x1_0
      (maximumf (broadcastInDim S65536 ![] bcast_S_S65536 (constant S_ .f32 0xFF800000#32))
        (Host.reduce FloatOps.maximumf z (constant S_ .f32 0xFF800000#32) reducesTo_S65536x10_S65536_d1 h_S_)))

/-- The row-wise log-softmax: s − log Σ exp s with s = z − max z. -/
def lsm (z : FVec F S65536x10 .f32) : FVec F S65536x10 .f32 :=
  subf (subf z (rowMax z))
    (broadcastInDim S65536x10 ![0, 1] bcast_S65536x1_S65536x10_0_1
      (Host.log (broadcastInDim S65536x1 ![0] bcast_S65536_S65536x1_0
        (Host.reduceAdd (Host.exp (subf z (rowMax z))) (constant S_ .f32 0x00000000#32) reducesTo_S65536x10_S65536_d1 h_S_))))

/-- The reference's result. -/
def refOut (x : FVec F S65536x784 .f32) (w1 : FVec F S256x784 .f32) (b1 : FVec F S256 .f32) (w2 : FVec F S128x256 .f32)
    (b2 : FVec F S128 .f32) (w3 : FVec F S10x128 .f32) (b3 : FVec F S10 .f32) : FVec F S65536x10 .f32 :=
  lsm (normOf (logits x w1 b1 w2 b2 w3 b3))

end Cert.ReferenceIdeal.RefTerm

end
-- ==== Proof.LayersR.lean ====
/-
  The reference's three layers, read at an index.

  For weights that are real numbers the straight-through binarization w + (sign w − w) is sign w; a clipped
  value lies in [-1, 1], so it is a real number and its binarization is its sign. The host's matrix product
  x · Bᵀ (the transpose materialized) at (R, j) is Σ_c x[R,c] · B[j,c], and the bias is laid along every row.
  So row R of the reference's logits is the row function Spec.logitsRow of row R of the input.
-/
import proofs.«143637_j89189290868841_1_alg».proof.Proof.RefTerm
import proofs.«143637_j89189290868841_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StackMember
import Idealize.ShloMosaic.PureOps.Ideal.Laws
import Idealize.ShloMosaic.PureOps.IdealRules

noncomputable section

namespace Cert.ReferenceIdeal.LayersR

open Cert.ReferenceIdeal Cert.ReferenceIdeal.Gen Cert.ReferenceIdeal.RefTerm Idealize.ShloMosaic Idealize.ShloMosaic.ValueIdx Cert.Spec

/-- An extended real that is a real number. -/
def IsReal (x : EReal) : Prop := ∃ r : ℝ, x = (r : EReal)

/-- For a real number w the straight-through binarization w + (sign w − w) is sign w. -/
theorem binz_real {w : EReal} (hw : IsReal w) : w + (Ideal.sign w - w) = Ideal.sign w := by
  obtain ⟨r, rfl⟩ := hw
  rw [Ideal.sign_coe, ← EReal.coe_sub, ← EReal.coe_add]
  exact congrArg _ (by ring)

theorem one_eq : one = ((1 : ℝ) : EReal) := by
  unfold one; exact (IdealRules.sign_bit.ideal_onePat .f32).trans (by norm_cast)

theorem negOne_eq : negOne = ((-1 : ℝ) : EReal) := by
  unfold negOne; exact (IdealRules.sign_bit.ideal_negOnePat .f32).trans (by rw [EReal.coe_neg, EReal.coe_one])

/-- A clipped value is a real number: it lies between −1 and 1. -/
theorem clip1_real (v : EReal) : IsReal (clip1 v) := by
  have h1 : clip1 v ≤ ((1 : ℝ) : EReal) := by unfold clip1; rw [one_eq]; exact min_le_left _ _
  have h2 : ((-1 : ℝ) : EReal) ≤ clip1 v := by
    unfold clip1; rw [one_eq, negOne_eq]
    exact le_min (by norm_cast) (le_max_left _ _)
  have ht : clip1 v ≠ ⊤ := fun e => by rw [e] at h1; exact absurd h1 (not_le.mpr (EReal.coe_lt_top 1))
  have hb : clip1 v ≠ ⊥ := fun e => by rw [e] at h2; exact absurd h2 (not_le.mpr (EReal.bot_lt_coe (-1)))
  exact ⟨(clip1 v).toReal, (EReal.coe_toReal ht hb).symm⟩

/-- The binarization of a clipped value is the activation. -/
theorem binz_clip (v : EReal) : clip1 v + (Ideal.sign (clip1 v) - clip1 v) = act v := binz_real (clip1_real v)

/-- The binarization at an index. -/
theorem binz_apply {S : Shape} (t : FVec Ideal S .f32) (i : S.Idx) :
    binz t i = t i + (Ideal.sign (t i) - t i) := rfl

/-- A vector of n entries laid as the one row of a [1, n] matrix, read at (0, t). -/
theorem bcastRow_apply {n : ℕ} (hd : (⟨1, ![n]⟩ : Shape).BroadcastsInDim ⟨2, ![1, n]⟩ ![1])
    (x : (⟨1, ![n]⟩ : Shape).Idx → EReal) (t : Fin n) :
    broadcastInDim ⟨2, ![1, n]⟩ ![1] hd x (ix2 (0 : Fin 1) t) = x (ix1 t) := by
  refine broadcastInDim_apply ![1] hd x (ix2 (0 : Fin 1) t) (ix1 t) ?_
  intro a
  match a with
  | ⟨0, _⟩ =>
    show t.val = if n = 1 then 0 else t.val
    split
    · have := t.isLt; omega
    · rfl

/-- One host layer before the clip, at (R, j): Σ_c a[R,c] · (binz W)[j,c] + b[j]. -/
theorem lin_apply {m k n : ℕ} (a : FVec Ideal ⟨2, ![m, k]⟩ .f32) (W : FVec Ideal ⟨2, ![n, k]⟩ .f32) (b : FVec Ideal ⟨1, ![n]⟩ .f32)
    (ht : (⟨2, ![n, k]⟩ : Shape).Transposes [1, 0] ⟨2, ![k, n]⟩)
    (hb1 : (⟨1, ![n]⟩ : Shape).BroadcastsInDim ⟨2, ![1, n]⟩ ![1])
    (hb2 : (⟨2, ![1, n]⟩ : Shape).BroadcastsInDim ⟨2, ![m, n]⟩ ![0, 1]) (R : Fin m) (j : Fin n) :
    addf (Host.dotGeneral (DotDims.plain m k n) none a (transpose ⟨2, ![k, n]⟩ [1, 0] (binz W) ht))
      (broadcastInDim ⟨2, ![m, n]⟩ ![0, 1] hb2 (broadcastInDim ⟨2, ![1, n]⟩ ![1] hb1 b)) (ix2 R j)
    = (∑ c : Fin k, a (ix2 R c) * binz W (ix2 j c)) + b (ix1 j) := by
  show Host.dotGeneral (DotDims.plain m k n) none a (transpose ⟨2, ![k, n]⟩ [1, 0] (binz W) ht) (ix2 R j)
      + broadcastInDim ⟨2, ![m, n]⟩ ![0, 1] hb2 (broadcastInDim ⟨2, ![1, n]⟩ ![1] hb1 b) (ix2 R j) = _
  rw [StackMember.dotGeneral_plain_apply, broadcastInDim_oneRow_apply, bcastRow_apply]
  refine congrArg (· + b (ix1 j)) (Finset.sum_congr rfl fun c _ => ?_)
  rw [transpose_ix2_apply]

/-- The host's clip at an index. -/
theorem clipA_apply (h : FVec Ideal S65536x256 .f32) (i : S65536x256.Idx) : clipA h i = clip1 (h i) := by
  show min (broadcastInDim S65536x256 ![] bcast_S_S65536x256 (id (constant S_ .f32 0x3F800000#32)) i)
    (max (broadcastInDim S65536x256 ![] bcast_S_S65536x256 (id (constant S_ .f32 0xBF800000#32)) i) (h i)) = _
  rw [broadcastInDim_scalar_apply, broadcastInDim_scalar_apply]
  rfl

theorem clipB_apply (h : FVec Ideal S65536x128 .f32) (i : S65536x128.Idx) : clipB h i = clip1 (h i) := by
  show min (broadcastInDim S65536x128 ![] bcast_S_S65536x128 (id (constant S_ .f32 0x3F800000#32)) i)
    (max (broadcastInDim S65536x128 ![] bcast_S_S65536x128 (id (constant S_ .f32 0xBF800000#32)) i) (h i)) = _
  rw [broadcastInDim_scalar_apply, broadcastInDim_scalar_apply]
  rfl

theorem lin1_apply (x : FVec Ideal S65536x784 .f32) (w1 : FVec Ideal S256x784 .f32) (b1 : FVec Ideal S256 .f32)
    (R : Fin 65536) (j : Fin 256) :
    lin1 x w1 b1 (ix2 R j) = (∑ c : Fin 784, x (ix2 R c) * binz w1 (ix2 j c)) + b1 (ix1 j) :=
  lin_apply (m := 65536) (k := 784) (n := 256) x w1 b1 _ _ _ R j

theorem lin2_apply (a : FVec Ideal S65536x256 .f32) (w2 : FVec Ideal S128x256 .f32) (b2 : FVec Ideal S128 .f32)
    (R : Fin 65536) (j : Fin 128) :
    lin2 a w2 b2 (ix2 R j) = (∑ c : Fin 256, a (ix2 R c) * binz w2 (ix2 j c)) + b2 (ix1 j) :=
  lin_apply (m := 65536) (k := 256) (n := 128) a w2 b2 _ _ _ R j

theorem lin3_apply (a : FVec Ideal S65536x128 .f32) (w3 : FVec Ideal S10x128 .f32) (b3 : FVec Ideal S10 .f32)
    (R : Fin 65536) (j : Fin 10) :
    lin3 a w3 b3 (ix2 R j) = (∑ c : Fin 128, a (ix2 R c) * binz w3 (ix2 j c)) + b3 (ix1 j) :=
  lin_apply (m := 65536) (k := 128) (n := 10) a w3 b3 _ _ _ R j

/-- THE REFERENCE'S LOGITS AT AN INDEX, for weight matrices whose entries are real numbers. -/
theorem logits_apply (x : FVec Ideal S65536x784 .f32) (w1 : FVec Ideal S256x784 .f32) (b1 : FVec Ideal S256 .f32)
    (w2 : FVec Ideal S128x256 .f32) (b2 : FVec Ideal S128 .f32) (w3 : FVec Ideal S10x128 .f32) (b3 : FVec Ideal S10 .f32)
    (h1 : ∀ i, IsReal (w1 i)) (h2 : ∀ i, IsReal (w2 i)) (h3 : ∀ i, IsReal (w3 i)) (R : Fin 65536) (q : Fin 10) :
    logits x w1 b1 w2 b2 w3 b3 (ix2 R q)
      = logitsRow w1 (fun j => b1 (ix1 j)) w2 (fun j => b2 (ix1 j)) w3 (fun j => b3 (ix1 j)) (fun k => x (ix2 R k)) q := by
  unfold logits logitsRow
  rw [lin3_apply]
  unfold linRow
  refine congrArg (· + b3 (ix1 q)) (Finset.sum_congr rfl fun k _ => ?_)
  rw [binz_apply w3, binz_real (h3 _), binz_apply, clipB_apply, binz_clip, lin2_apply]
  refine congrArg (fun z => act z * Ideal.sign (w3 (ix2 q k))) ?_
  refine congrArg (· + b2 (ix1 k)) (Finset.sum_congr rfl fun k' _ => ?_)
  rw [binz_apply w2, binz_real (h2 _), binz_apply, clipA_apply, binz_clip, lin1_apply]
  refine congrArg (fun z => act z * Ideal.sign (w2 (ix2 k k'))) ?_
  refine congrArg (· + b1 (ix1 k')) (Finset.sum_congr rfl fun k'' _ => ?_)
  rw [binz_apply w1, binz_real (h1 _)]

end Cert.ReferenceIdeal.LayersR

end
-- ==== Proof.TailR.lean ====
/-
  The reference's last stage read at an index. With h the array of logits (65536 rows of 10), μ and σ² its column
  mean and (biased) column variance kept as one-row matrices, the reference computes
    z = (h − μ) / √(σ² + ε),   then   z − max_row z − log Σ_row exp (z − max_row z).
  Here: σ² ≥ 0 at every column (a mean of squares, each square nonnegative on the extended reals, ⊥·⊥ = ⊤ included);
  for 0 < v the quotient a / √v is the product a · v^(-1/2) for EVERY extended real a (v = ⊤: both are 0); hence the
  reference's value at (R, q) is the row function tailRow of row R of h with μ and σ².
-/
import proofs.«143637_j89189290868841_1_alg».proof.Proof.RefTerm
import proofs.«143637_j89189290868841_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost

noncomputable section

namespace Cert.ReferenceIdeal.TailR

open Cert.ReferenceIdeal Cert.ReferenceIdeal.Gen Cert.ReferenceIdeal.RefTerm Idealize.ShloMosaic Idealize.ShloMosaic.ValueIdx

/-! ## Facts about the extended reals -/

/-- A square is nonnegative on the extended reals: ⊥ · ⊥ = ⊤ · ⊤ = ⊤, and r · r ≥ 0 for a real r. -/
theorem mul_self_nonneg' (a : EReal) : 0 ≤ a * a := by
  induction a using EReal.rec with
  | bot => simp
  | top => simp
  | coe r => rw [← EReal.coe_mul]; exact EReal.coe_nonneg.mpr (mul_self_nonneg r)

/-- For 0 < v: a / √v = a · v^(-1/2), for every extended real a. At v = ⊤ the divisor is ⊤, whose inverse is 0, and
    the factor is 0 as well; at a positive real v the divisor √v is a real that is not zero and the factor is (√v)⁻¹. -/
theorem div_sqrt_eq_mul_rsqrt (a v : EReal) (hv : 0 < v) : Ideal.div a (Ideal.sqrt v) = a * Ideal.rsqrt v := by
  induction v using EReal.rec with
  | bot => exact absurd hv (by simp)
  | top =>
    rw [Ideal.sqrt_top, Ideal.rsqrt_top]
    unfold Ideal.div
    rw [if_neg (by simp), EReal.inv_top]
  | coe r =>
    have hr : 0 < r := by exact_mod_cast hv
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div]

/-- The word 0xFF800000 is −∞. -/
theorem negInf_eq_bot : Ideal.ofBits .f32 0xFF800000#32 = ⊥ := by simp [Ideal.ofBits, Ideal.ieee]

/-- The word 0x47800000 is the real 65536. -/
theorem ofBits_65536 : Ideal.ofBits .f32 0x47800000#32 = ((65536 : ℝ) : EReal) := by
  simp [Ideal.ofBits, Ideal.ieee, -EReal.coe_mul]; norm_num

/-- The ε of the normalization is a positive real. -/
theorem eps_pos : 0 < Cert.Spec.eps := by
  unfold Cert.Spec.eps
  simp [Ideal.ofBits, Ideal.ieee, -EReal.coe_mul]

/-! ## The reference's elementwise host operations read at an index -/

theorem hostSqrt_apply {s : Shape} (x : FVec Ideal s .f32) (i : s.Idx) : Host.sqrt x i = Ideal.sqrt (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## The reference's layout operations read at an index -/

/-- A vector of 10 laid as the one row of a 1 × 10 matrix (broadcast along axis 1), read at (0, c), is entry c. -/
theorem bcast_row_apply {α : Type} (y : S10.Idx → α) (c : Fin 10) :
    broadcastInDim S1x10 ![1] bcast_S10_S1x10_1 y (ix2 (0 : Fin 1) c) = y (ix1 c) := by
  refine broadcastInDim_apply ![1] bcast_S10_S1x10_1 y (ix2 (0 : Fin 1) c) (ix1 c) ?_
  intro a
  fin_cases a
  show c.val = if (10 : ℕ) = 1 then 0 else c.val
  simp

/-- A vector of 65536 laid as the one column of a 65536 × 1 matrix (broadcast along axis 0), read at (R, 0), is entry R. -/
theorem bcast_col_apply {α : Type} (y : S65536.Idx → α) (R : Fin 65536) (u : Fin 1) :
    broadcastInDim S65536x1 ![0] bcast_S65536_S65536x1_0 y (ix2 R u) = y (ix1 R) := by
  refine broadcastInDim_apply ![0] bcast_S65536_S65536x1_0 y (ix2 R u) (ix1 R) ?_
  intro a
  fin_cases a
  show R.val = if (65536 : ℕ) = 1 then 0 else R.val
  simp

/-- A one-column matrix spread over the 10 columns, read at (R, c), is the column at (R, 0). -/
theorem bcast_cols_apply {α : Type} (y : S65536x1.Idx → α) (R : Fin 65536) (c : Fin 10) :
    broadcastInDim S65536x10 ![0, 1] bcast_S65536x1_S65536x10_0_1 y (ix2 R c) = y (ix2 R (0 : Fin 1)) := by
  refine broadcastInDim_apply ![0, 1] bcast_S65536x1_S65536x10_0_1 y (ix2 R c) (ix2 R (0 : Fin 1)) ?_
  intro a
  fin_cases a
  · show R.val = if (65536 : ℕ) = 1 then 0 else R.val
    simp
  · show (0 : ℕ) = if (1 : ℕ) = 1 then 0 else c.val
    simp

/-- The index over row R of a 65536 × 10 array with coordinate k inserted on the reduced axis 1 is (R, k). -/
theorem lift_row (hr : S65536x10.Reduces [1] S65536) (R : Fin 65536) (k : Fin (S65536x10.size 1)) :
    hr.lift (ix1 R) k = ix2 R (⟨k.val, k.isLt⟩ : Fin 10) := by
  funext c; apply Fin.ext
  fin_cases c <;> rfl

/-- The index over column c of a 65536 × 10 array with coordinate k inserted on the reduced axis 0 is (k, c). -/
theorem lift_col (hr : S65536x10.Reduces [0] S10) (c : Fin 10) (k : Fin (S65536x10.size 0)) :
    hr.lift (ix1 c) k = ix2 (⟨k.val, k.isLt⟩ : Fin 65536) c := by
  funext d; apply Fin.ext
  fin_cases d <;> rfl

/-! ## The variance is nonnegative -/

/-- The divisor of the variance: the float 65536 minus the converted integer 0, the real 65536. -/
theorem dofOf_apply (j : S_.Idx) : RefTerm.dofOf (F := Ideal) j = ((65536 : ℝ) : EReal) := by
  unfold RefTerm.dofOf
  rw [subf_apply]
  show Ideal.ofBits .f32 0x47800000#32 - (Scalar.sitofp .f32 0#32 : Ideal .f32) = _
  rw [ofBits_65536, sitofp_zero, sub_zero]

/-- The deviations from the column means. -/
abbrev dev (h : FVec Ideal S65536x10 .f32) : FVec Ideal S65536x10 .f32 :=
  subf h (broadcastInDim S65536x10 ![0, 1] bcast_S1x10_S65536x10_0_1 (RefTerm.muOf h))

/-- The variance at column c: the "count is positive" test holds (65536 > 0), so the select takes the quotient of the
    sum of squared deviations by 65536. -/
theorem varOf_apply (h : FVec Ideal S65536x10 .f32) (c : Fin 10) :
    RefTerm.varOf (F := Ideal) h (ix2 (0 : Fin 1) c)
      = Ideal.div (Host.reduceAdd (mulf (dev h) (dev h)) (constant S_ .f32 0x00000000#32) reducesTo_S65536x10_S10_d0 h_S_ (ix1 c))
          ((65536 : ℝ) : EReal) := by
  unfold RefTerm.varOf
  rw [select_apply, broadcastInDim_scalar_apply, cmpf_apply, hostDivf_apply, bcast_row_apply, broadcastInDim_scalar_apply,
    dofOf_apply]
  have hc : FloatOps.cmpf (F := Ideal) (φ := .f32) .ogt ((65536 : ℝ) : EReal) (constant (F := Ideal) S_ .f32 0x00000000#32 ix0) = 1#1 := by
    show Ideal.cmp .ogt ((65536 : ℝ) : EReal) (Ideal.ofBits .f32 0x00000000#32) = 1#1
    rw [Ideal.ofBits_zero_f32]
    unfold Ideal.cmp
    have : (0 : EReal) < ((65536 : ℝ) : EReal) := by exact_mod_cast (by norm_num : (0 : ℝ) < 65536)
    simp [this]
  rw [hc, select_one]

theorem varOf_nonneg (h : FVec Ideal S65536x10 .f32) (c : Fin 10) : 0 ≤ RefTerm.varOf (F := Ideal) h (ix2 (0 : Fin 1) c) := by
  have hr : S65536x10.Reduces [0] S10 := ⟨reducesTo_S65536x10_S10_d0.1, Nat.one_pos, reducesTo_S65536x10_S10_d0.2⟩
  rw [varOf_apply, hostReduceAdd_apply, Ideal.hostReduceAdd_single reducesTo_S65536x10_S10_d0 hr,
    Ideal.div_coe (by norm_num)]
  refine mul_nonneg (add_nonneg (le_of_eq ?_) (Finset.sum_nonneg fun k _ => ?_)) ?_
  · show (0 : EReal) = Ideal.ofBits .f32 0x00000000#32
    rw [Ideal.ofBits_zero_f32]
  · rw [mulf_apply]; exact mul_self_nonneg' _
  · exact_mod_cast (by norm_num : (0 : ℝ) ≤ 1 / 65536)

/-! ## The normalization at an index -/

/-- (h − μ) / √(σ² + ε) at (R, c) is the row function's (h − μ) · (σ² + ε)^(-1/2): the divisor's argument is positive. -/
theorem normOf_apply (h : FVec Ideal S65536x10 .f32) (R : Fin 65536) (c : Fin 10) :
    RefTerm.normOf (F := Ideal) h (ix2 R c)
      = Cert.Spec.normRow (fun c => h (ix2 R c)) (RefTerm.muOf h) (RefTerm.varOf h) c := by
  unfold RefTerm.normOf Cert.Spec.normRow
  rw [hostDivf_apply, subf_apply, broadcastInDim_oneRow_apply, broadcastInDim_oneRow_apply]
  have hs : Host.sqrt (addf (RefTerm.varOf h) (broadcastInDim S1x10 ![] bcast_S_S1x10 (constant S_ .f32 0x3727C5AC#32))) (ix2 (0 : Fin 1) c)
      = Ideal.sqrt (RefTerm.varOf h (ix2 (0 : Fin 1) c) + Cert.Spec.eps) := by
    rw [hostSqrt_apply, addf_apply, broadcastInDim_scalar_apply]; rfl
  rw [hs]
  exact div_sqrt_eq_mul_rsqrt _ _ (lt_of_lt_of_le eps_pos (le_add_of_nonneg_left (varOf_nonneg h c)))

/-! ## The row maximum and the log-softmax at an index -/

/-- The reference's row maximum at (R, c): max(−∞, the maximum from −∞ over row R), the row function's maximum. -/
theorem rowMax_apply (z : FVec Ideal S65536x10 .f32) (R : Fin 65536) (c : Fin 10) :
    RefTerm.rowMax (F := Ideal) z (ix2 R c) = Cert.Spec.rowMax (fun k => z (ix2 R k)) := by
  have hr : S65536x10.Reduces [1] S65536 := ⟨reducesTo_S65536x10_S65536_d1.1, Nat.one_pos, reducesTo_S65536x10_S65536_d1.2⟩
  unfold RefTerm.rowMax Cert.Spec.rowMax
  rw [bcast_cols_apply, bcast_col_apply, maximumf_apply, broadcastInDim_scalar_apply,
    Host.reduce_eq_fold_single FloatOps.maximumf z _ reducesTo_S65536x10_S65536_d1 hr h_S_]
  have hf : (z ∘ hr.lift (ix1 R)) = fun k : Fin 10 => z (ix2 R k) := funext fun k => congrArg z (lift_row hr R k)
  rw [hf]
  show max (Ideal.ofBits .f32 0xFF800000#32) (Finset.fold max (Ideal.ofBits .f32 0xFF800000#32) (fun k : Fin 10 => z (ix2 R k)) Finset.univ)
      = Finset.fold max (Ideal.ofBits .f32 0xFF800000#32) (fun k : Fin 10 => z (ix2 R k)) Finset.univ
  rw [negInf_eq_bot]
  exact max_bot_left _

/-- The reference's log-softmax at (R, q) is the row function's, of row R. -/
theorem lsm_apply (z : FVec Ideal S65536x10 .f32) (R : Fin 65536) (q : Fin 10) :
    RefTerm.lsm (F := Ideal) z (ix2 R q) = Cert.Spec.lsmRow (fun k => z (ix2 R k)) q := by
  have hr : S65536x10.Reduces [1] S65536 := ⟨reducesTo_S65536x10_S65536_d1.1, Nat.one_pos, reducesTo_S65536x10_S65536_d1.2⟩
  unfold RefTerm.lsm Cert.Spec.lsmRow
  rw [subf_apply, subf_apply, rowMax_apply, bcast_cols_apply]
  have hl : Host.log (broadcastInDim S65536x1 ![0] bcast_S65536_S65536x1_0
        (Host.reduceAdd (Host.exp (subf z (RefTerm.rowMax z))) (constant S_ .f32 0x00000000#32) reducesTo_S65536x10_S65536_d1 h_S_))
        (ix2 R (0 : Fin 1))
      = Ideal.log (∑ c : Fin 10, Ideal.exp (z (ix2 R c) - Cert.Spec.rowMax (fun k => z (ix2 R k)))) := by
    rw [hostLog_apply, bcast_col_apply, hostReduceAdd_apply, Ideal.hostReduceAdd_single reducesTo_S65536x10_S65536_d1 hr]
    refine congrArg Ideal.log ?_
    have h0 : (constant (F := Ideal) S_ .f32 0x00000000#32) (Shape.Idx.first h_S_) = 0 := Ideal.ofBits_zero_f32
    rw [h0, zero_add]
    show ∑ k : Fin 10, Host.exp (subf z (RefTerm.rowMax z)) (hr.lift (ix1 R) k) = _
    refine Finset.sum_congr rfl fun k _ => ?_
    rw [lift_row hr R k]
    rw [hostExp_apply, subf_apply, rowMax_apply]
  rw [hl]

/-! ## The reference's last stage -/

theorem ref_tail (h : FVec Ideal S65536x10 .f32) (R : Fin 65536) (q : Fin 10) :
    RefTerm.lsm (F := Ideal) (RefTerm.normOf h) (ix2 R q)
      = Cert.Spec.tailRow (fun c => h (ix2 R c)) (RefTerm.muOf h) (RefTerm.varOf h) q := by
  rw [lsm_apply]
  unfold Cert.Spec.tailRow
  exact congrArg (fun n => Cert.Spec.lsmRow n q) (funext fun k => normOf_apply h R k)

end Cert.ReferenceIdeal.TailR

end
-- ==== Proof.Finite.lean ====
/-
  The precondition read back: when every float input holds finite numbers, every entry of the three weight
  matrices is a real number (|w| < +∞ on the extended reals leaves only the reals).
-/
import proofs.«143637_j89189290868841_1_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

theorem vandi_eq_one {s : Shape} (x y : IVec s 1) (i : s.Idx) (h : andi x y i = 1#1) : x i = 1#1 ∧ y i = 1#1 :=
  IntOp.andi_eq_one.1 h

/-- The +∞ word is ⊤. -/
theorem inf_eq : Ideal.ofBits .f32 0x7F800000#32 = (⊤ : EReal) := by simp [Ideal.ofBits, Ideal.ieee]

/-- |x| < +∞ leaves only the real numbers. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_eq] at h
  induction x using EReal.rec with
  | bot => simp [Ideal.cmpf_def, Ideal.absf_def, Ideal.cmp] at h
  | coe r => exact ⟨r, rfl⟩
  | top => simp [Ideal.cmpf_def, Ideal.absf_def, Ideal.cmp] at h

/-- From the precondition: the three weight matrices hold real numbers. -/
theorem weights_real (a0 : FVec Ideal S65536x784 .f32) (a1 : FVec Ideal S256x784 .f32) (a2 : FVec Ideal S256 .f32)
    (a3 : FVec Ideal S128x256 .f32) (a4 : FVec Ideal S128 .f32) (a5 : FVec Ideal S10x128 .f32) (a6 : FVec Ideal S10 .f32)
    (h : fn (F := Ideal) a0 a1 a2 a3 a4 a5 a6 = fun _ => 1#1) :
    (∀ i, ∃ r : ℝ, a1 i = (r : EReal)) ∧ (∀ i, ∃ r : ℝ, a3 i = (r : EReal)) ∧ (∀ i, ∃ r : ℝ, a5 i = (r : EReal)) := by
  have h0 : fn (F := Ideal) a0 a1 a2 a3 a4 a5 a6 ix0 = 1#1 := congrFun h ix0
  unfold fn fn_part1 at h0
  dsimp only at h0
  obtain ⟨h0, -⟩ := vandi_eq_one _ _ _ h0
  obtain ⟨h0, h27⟩ := vandi_eq_one _ _ _ h0
  obtain ⟨h0, -⟩ := vandi_eq_one _ _ _ h0
  obtain ⟨h0, h17⟩ := vandi_eq_one _ _ _ h0
  obtain ⟨h0, -⟩ := vandi_eq_one _ _ _ h0
  obtain ⟨-, h7⟩ := vandi_eq_one _ _ _ h0
  refine ⟨fun i => ?_, fun i => ?_, fun i => ?_⟩
  · have e := Host.reduce_andi_all _ _ _ _ _ h7 i
    exact real_of_abs_lt_inf (a1 i) e
  · have e := Host.reduce_andi_all _ _ _ _ _ h17 i
    exact real_of_abs_lt_inf (a3 i) e
  · have e := Host.reduce_andi_all _ _ _ _ _ h27 i
    exact real_of_abs_lt_inf (a5 i) e

end Cert.Pre_finite_inputs.Finite

end
-- ==== Proof.BridgeRows.lean ====
/-
  Two bridges between the spellings of the two programs.

  (1) The kernel's three layers on a row, over weights that are already signs and biases reshaped to one-row
  matrices, are the row function logitsRow over the weights themselves and the bias vectors: the sign of a weight
  array read at an index is the sign of the entry, and a vector reshaped to one row, read at (0, j), is entry j.

  (2) The batch statistics the kernel's program computes on the host between its two launches are the reference's:
  the same operations on the same shapes.
-/
import proofs.«143637_j89189290868841_1_alg».proof.Proof.LayersK
import proofs.«143637_j89189290868841_1_alg».proof.Proof.Spec
import proofs.«143637_j89189290868841_1_alg».proof.Proof.KTerm
import proofs.«143637_j89189290868841_1_alg».proof.Proof.RefTerm
import Idealize.ShloMosaic.Lib.ValueLayout

noncomputable section

namespace Cert.Proof.BridgeRows

open Cert.KernelIdeal Cert.KernelIdeal.Gen Idealize.ShloMosaic Idealize.ShloMosaic.ValueIdx

/-! ## The layers on a row -/

/-- One layer: over the signs of W and the bias b reshaped to one row, the kernel's layer on a row is the row
    function's layer over W and b. -/
theorem linS_eq {K N : ℕ} (a : Fin K → EReal) (W : FVec Ideal ⟨2, ![N, K]⟩ .f32) (b : FVec Ideal ⟨1, ![N]⟩ .f32)
    (hs : (⟨1, ![N]⟩ : Shape).ShapeCasts ⟨2, ![1, N]⟩) (j : Fin N) :
    Cert.KernelIdeal.LayersK.linS a (Host.sign W) (shapeCast ⟨2, ![1, N]⟩ b hs) j
      = Cert.Spec.linRow a W (fun j => b (ix1 j)) j := by
  unfold Cert.KernelIdeal.LayersK.linS Cert.Spec.linRow
  rw [shapeCast_a_1a_apply]
  rfl

theorem rowK_eq (xr : Fin 784 → EReal) (w1 : FVec Ideal Cert.KernelIdeal.S256x784 .f32) (b1 : FVec Ideal Cert.KernelIdeal.S256 .f32)
    (w2 : FVec Ideal Cert.KernelIdeal.S128x256 .f32) (b2 : FVec Ideal Cert.KernelIdeal.S128 .f32)
    (w3 : FVec Ideal Cert.KernelIdeal.S10x128 .f32) (b3 : FVec Ideal Cert.KernelIdeal.S10 .f32) (q : Fin 10) :
    Cert.KernelIdeal.LayersK.rowK xr (Host.sign w1) (shapeCast S1x256 b1 shapeCasts_S256_S1x256)
        (Host.sign w2) (shapeCast S1x128 b2 shapeCasts_S128_S1x128)
        (Host.sign w3) (shapeCast S1x10 b3 shapeCasts_S10_S1x10) q
      = Cert.Spec.logitsRow w1 (fun j => b1 (ix1 j)) w2 (fun j => b2 (ix1 j)) w3 (fun j => b3 (ix1 j)) xr q := by
  unfold Cert.KernelIdeal.LayersK.rowK Cert.Spec.logitsRow
  refine (linS_eq (K := 128) (N := 10) _ w3 b3 shapeCasts_S10_S1x10 q).trans ?_
  refine congrArg (fun f => Cert.Spec.linRow f w3 (fun j => b3 (ix1 j)) q) (funext fun k => ?_)
  refine congrArg Cert.Spec.act ?_
  refine (linS_eq (K := 256) (N := 128) _ w2 b2 shapeCasts_S128_S1x128 k).trans ?_
  refine congrArg (fun f => Cert.Spec.linRow f w2 (fun j => b2 (ix1 j)) k) (funext fun k' => ?_)
  refine congrArg Cert.Spec.act ?_
  exact linS_eq (K := 784) (N := 256) xr w1 b1 shapeCasts_S256_S1x256 k'

/-! ## The batch statistics -/

theorem muK_eq (h : FVec Ideal Cert.KernelIdeal.S65536x10 .f32) :
    Cert.KernelIdeal.KTerm.muK (F := Ideal) h = Cert.ReferenceIdeal.RefTerm.muOf (F := Ideal) h := rfl

theorem varK_eq (h : FVec Ideal Cert.KernelIdeal.S65536x10 .f32) :
    Cert.KernelIdeal.KTerm.varK (F := Ideal) h = Cert.ReferenceIdeal.RefTerm.varOf (F := Ideal) h := rfl

end Cert.Proof.BridgeRows

end
-- ==== Proof.KernelValue.lean ====
/-
  The kernel's result array as the reference's term of the argument arrays.

  After the second launch the result array holds, at (R, q), the normalization and log-softmax of row R of the
  logits array with the batch statistics of that array; the logits array after the first launch holds, at (R, q),
  the three binarized layers of row R of the input. For weight matrices of real numbers that logits array is the
  reference's, entry by entry; the statistics are the same host operations of it; and the last stage agrees with
  the reference's (h − μ) / √(σ² + ε) followed by log-softmax because σ² + ε > 0.
-/
import proofs.«143637_j89189290868841_1_alg».proof.Defs
import proofs.«143637_j89189290868841_1_alg».proof.Proof.KRun
import proofs.«143637_j89189290868841_1_alg».proof.Proof.Blocks0
import proofs.«143637_j89189290868841_1_alg».proof.Proof.Blocks1
import proofs.«143637_j89189290868841_1_alg».proof.Proof.LayersK
import proofs.«143637_j89189290868841_1_alg».proof.Proof.TailK
import proofs.«143637_j89189290868841_1_alg».proof.Proof.LayersR
import proofs.«143637_j89189290868841_1_alg».proof.Proof.TailR
import proofs.«143637_j89189290868841_1_alg».proof.Proof.Finite
import proofs.«143637_j89189290868841_1_alg».proof.Proof.BridgeRows

set_option maxRecDepth 16384

noncomputable section

namespace Cert.Proof.KernelValue

open Cert.KernelIdeal Cert.KernelIdeal.Gen Idealize.ShloMosaic Idealize.ShloMosaic.TcCoe Idealize.ShloMosaic.ValueIdx Idealize.SL.Sem
open Cert.ReferenceIdeal.RefTerm (refOut logits lsm normOf muOf varOf)

variable (m : (ℓ : Loc nD τ sig) → Buf (Elt Ideal) ℓ) (ρ : Dev nD → PrngReg)

/-- The logits array the first launch leaves, for real weight matrices, is the reference's logits array. -/
theorem logits_eq (x : FVec Ideal S65536x784 .f32) (w1 : FVec Ideal S256x784 .f32) (b1 : FVec Ideal S256 .f32)
    (w2 : FVec Ideal S128x256 .f32) (b2 : FVec Ideal S128 .f32) (w3 : FVec Ideal S10x128 .f32) (b3 : FVec Ideal S10 .f32)
    (h1 : ∀ i, ∃ r : ℝ, w1 i = (r : EReal)) (h2 : ∀ i, ∃ r : ℝ, w2 i = (r : EReal)) (h3 : ∀ i, ∃ r : ℝ, w3 i = (r : EReal)) :
    Blocks0.G LayersK.rowK x (Host.sign w1) (shapeCast S1x256 b1 shapeCasts_S256_S1x256) (Host.sign w2)
        (shapeCast S1x128 b2 shapeCasts_S128_S1x128) (Host.sign w3) (shapeCast S1x10 b3 shapeCasts_S10_S1x10)
      = logits (F := Ideal) x w1 b1 w2 b2 w3 b3 := by
  funext i
  obtain ⟨R, q, rfl⟩ : ∃ (R : Fin 65536) (q : Fin 10), i = ix2 R q := ⟨i 0, i 1, eq_ix2 i⟩
  show LayersK.rowK (fun k => x (ix2 R k)) (Host.sign w1) (shapeCast S1x256 b1 shapeCasts_S256_S1x256) (Host.sign w2)
        (shapeCast S1x128 b2 shapeCasts_S128_S1x128) (Host.sign w3) (shapeCast S1x10 b3 shapeCasts_S10_S1x10) q = _
  rw [Cert.Proof.BridgeRows.rowK_eq]
  exact (Cert.ReferenceIdeal.LayersR.logits_apply x w1 b1 w2 b2 w3 b3 h1 h2 h3 R q).symm

/-- The last stage on the whole array: normalization and log-softmax with the array's own statistics. -/
theorem tail_eq (L : FVec Ideal S65536x10 .f32) :
    Blocks1.G Cert.Spec.tailRow L (KTerm.muK (F := Ideal) L) (KTerm.varK (F := Ideal) L) = lsm (F := Ideal) (normOf L) := by
  rw [Cert.Proof.BridgeRows.muK_eq, Cert.Proof.BridgeRows.varK_eq]
  funext i
  obtain ⟨R, q, rfl⟩ : ∃ (R : Fin 65536) (q : Fin 10), i = ix2 R q := ⟨i 0, i 1, eq_ix2 i⟩
  exact (Cert.ReferenceIdeal.TailR.ref_tail L R q).symm

/-- THE KERNEL'S RESULT under the precondition: the reference's term of the argument arrays. -/
theorem value (hpre : Cert.Pre_KernelIdeal m) (c : Dev nD) :
    W5 m ρ c (Proc.devRef .tc main_v12)
      = refOut (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  obtain ⟨r1, r3, r5⟩ := Cert.Pre_finite_inputs.Finite.weights_real _ _ _ _ _ _ _ (hpre c)
  rw [KRun.out_eq, Blocks1.final (V4 m ρ) Cert.Spec.tailRow TailK.k1_tail c, KRun.V4_mu, KRun.V4_var, KRun.V4_h,
    Blocks0.final (V1 m ρ) LayersK.rowK LayersK.body_apply c, KRun.V1_x, KRun.V1_w1, KRun.V1_w2, KRun.V1_w3, KRun.V1_b1,
    KRun.V1_b2, KRun.V1_b3]
  rw [logits_eq _ _ _ _ _ _ _ r1 r3 r5, tail_eq]
  rfl

end Cert.Proof.KernelValue

end
-- ==== Proof.RefRun.lean ====
/-
  The reference program's run. Its @main is a straight line of ninety-nine host operations once the four
  outlined functions it calls (the two clips, the variance with its select, the log-softmax) are written
  out at their call sites over each call's own buffers. Every weakly fair execution of that line ends with
  the result buffer holding the composed pure term `RefTerm.refOut` of the seven argument arrays as they
  were at launch, and with the seven arguments unchanged.
-/
import proofs.«143637_j89189290868841_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's ninety-nine operations, in order: its own, and at each call the callee's body over that call's
    buffers (a clip is six operations: each bound converted to its own type and spread over the array, the
    maximum with the lower bound, the minimum with the upper; the variance is twenty with the three of its
    select; the log-softmax is fifteen). -/
abbrev ops : List (HloOp τ sig (Elt F)) :=
  [
    StableHlo.unary main_arg1 main_v0 (Host.sign : (⟨S256x784, .f32⟩ : BufTy).Contents (Elt F) → (⟨S256x784, .f32⟩ : BufTy).Contents (Elt F)),
    StableHlo.binary main_v0 main_arg1 main_v1 (subf : (⟨S256x784, .f32⟩ : BufTy).Contents (Elt F) → (⟨S256x784, .f32⟩ : BufTy).Contents (Elt F) → (⟨S256x784, .f32⟩ : BufTy).Contents (Elt F)),
    StableHlo.binary main_arg1 main_v1 main_v2 (addf : (⟨S256x784, .f32⟩ : BufTy).Contents (Elt F) → (⟨S256x784, .f32⟩ : BufTy).Contents (Elt F) → (⟨S256x784, .f32⟩ : BufTy).Contents (Elt F)),
    StableHlo.unary main_v2 main_v3 ((transpose S784x256 [1, 0] · transposes_S256x784_S784x256_1_0) : (⟨S256x784, .f32⟩ : BufTy).Contents (Elt F) → (⟨S784x256, .f32⟩ : BufTy).Contents (Elt F)),
    StableHlo.binary main_arg0 main_v3 main_v4 ((fun l r => Host.dotGeneral dot_S65536x784_S784x256_S65536x256_1_0_0_1_n_n none l r) : (⟨S65536x784, .f32⟩ : BufTy).Contents (Elt F) → (⟨S784x256, .f32⟩ : BufTy).Contents (Elt F) → (⟨S65536x256, .f32⟩ : BufTy).Contents (Elt F)),
    StableHlo.unary main_arg2 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S65536x256 ![0, 1] bcast_S1x256_S65536x256_0_1 : (⟨S1x256, .f32⟩ : BufTy).Contents (Elt F) → (⟨S65536x256, .f32⟩ : BufTy).Contents (Elt F)),
    StableHlo.binary main_v4 main_v6 main_v7 (addf : (⟨S65536x256, .f32⟩ : BufTy).Contents (Elt F) → (⟨S65536x256, .f32⟩ : BufTy).Contents (Elt F) → (⟨S65536x256, .f32⟩ : BufTy).Contents (Elt F)),
    StableHlo.nullary main_cst (constant S_ .f32 0xBF800000#32),
    StableHlo.nullary main_cst_0 (constant S_ .f32 0x3F800000#32),
    StableHlo.TRef.unary (.of main_cst : StableHlo.TRef sig ⟨S_, .f32⟩) main_call0.v0 id,
    StableHlo.TRef.unary main_call0.v0 main_call0.v1 (broadcastInDim S65536x256 ![] bcast_S_S65536x256),
    StableHlo.TRef.binary main_call0.v1 (.of main_v7 : StableHlo.TRef sig ⟨S65536x256, .f32⟩) main_call0.v2 maximumf,
    StableHlo.TRef.unary (.of main_cst_0 : StableHlo.TRef sig ⟨S_, .f32⟩) main_call0.v3 id,
    StableHlo.TRef.unary main_call0.v3 main_call0.v4 (broadcastInDim S65536x256 ![] bcast_S_S65536x256),
    StableHlo.TRef.binary main_call0.v4 main_call0.v2 main_call0.v5 minimumf,
    StableHlo.unary main_v8 main_v9 (Host.sign : (⟨S65536x256, .f32⟩ : BufTy).Contents (Elt F) → (⟨S65536x256, .f32⟩ : BufTy).Contents (Elt F)),
    StableHlo.binary main_v9 main_v8 main_v10 (subf : (⟨S65536x256, .f32⟩ : BufTy).Contents (Elt F) → (⟨S65536x256, .f32⟩ : BufTy).Contents (Elt F) → (⟨S65536x256, .f32⟩ : BufTy).Contents (Elt F)),
    StableHlo.binary main_v8 main_v10 main_v11 (addf : (⟨S65536x256, .f32⟩ : BufTy).Contents (Elt F) → (⟨S65536x256, .f32⟩ : BufTy).Contents (Elt F) → (⟨S65536x256, .f32⟩ : BufTy).Contents (Elt F)),
    StableHlo.unary main_arg3 main_v12 (Host.sign : (⟨S128x256, .f32⟩ : BufTy).Contents (Elt F) → (⟨S128x256, .f32⟩ : BufTy).Contents (Elt F)),
    StableHlo.binary main_v12 main_arg3 main_v13 (subf : (⟨S128x256, .f32⟩ : BufTy).Contents (Elt F) → (⟨S128x256, .f32⟩ : BufTy).Contents (Elt F) → (⟨S128x256, .f32⟩ : BufTy).Contents (Elt F)),
    StableHlo.binary main_arg3 main_v13 main_v14 (addf : (⟨S128x256, .f32⟩ : BufTy).Contents (Elt F) → (⟨S128x256, .f32⟩ : BufTy).Contents (Elt F) → (⟨S128x256, .f32⟩ : BufTy).Contents (Elt F)),
    StableHlo.unary main_v14 main_v15 ((transpose S256x128 [1, 0] · transposes_S128x256_S256x128_1_0) : (⟨S128x256, .f32⟩ : BufTy).Contents (Elt F) → (⟨S256x128, .f32⟩ : BufTy).Contents (Elt F)),
    StableHlo.binary main_v11 main_v15 main_v16 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S65536x128 ![0, 1] bcast_S1x128_S65536x128_0_1 : (⟨S1x128, .f32⟩ : BufTy).Contents (Elt F) → (⟨S65536x128, .f32⟩ : BufTy).Contents (Elt F)),
    StableHlo.binary main_v16 main_v18 main_v19 (addf : (⟨S65536x128, .f32⟩ : BufTy).Contents (Elt F) → (⟨S65536x128, .f32⟩ : BufTy).Contents (Elt F) → (⟨S65536x128, .f32⟩ : BufTy).Contents (Elt F)),
    StableHlo.nullary main_cst_1 (constant S_ .f32 0xBF800000#32),
    StableHlo.nullary main_cst_2 (constant S_ .f32 0x3F800000#32),
    StableHlo.TRef.unary (.of main_cst_1 : StableHlo.TRef sig ⟨S_, .f32⟩) main_call1.v0 id,
    StableHlo.TRef.unary main_call1.v0 main_call1.v1 (broadcastInDim S65536x128 ![] bcast_S_S65536x128),
    StableHlo.TRef.binary main_call1.v1 (.of main_v19 : StableHlo.TRef sig ⟨S65536x128, .f32⟩) main_call1.v2 maximumf,
    StableHlo.TRef.unary (.of main_cst_2 : StableHlo.TRef sig ⟨S_, .f32⟩) main_call1.v3 id,
    StableHlo.TRef.unary main_call1.v3 main_call1.v4 (broadcastInDim S65536x128 ![] bcast_S_S65536x128),
    StableHlo.TRef.binary main_call1.v4 main_call1.v2 main_call1.v5 minimumf,
    StableHlo.unary main_v20 main_v21 (Host.sign : (⟨S65536x128, .f32⟩ : BufTy).Contents (Elt F) → (⟨S65536x128, .f32⟩ : BufTy).Contents (Elt F)),
    StableHlo.binary main_v21 main_v20 main_v22 (subf : (⟨S65536x128, .f32⟩ : BufTy).Contents (Elt F) → (⟨S65536x128, .f32⟩ : BufTy).Contents (Elt F) → (⟨S65536x128, .f32⟩ : BufTy).Contents (Elt F)),
    StableHlo.binary main_v20 main_v22 main_v23 (addf : (⟨S65536x128, .f32⟩ : BufTy).Contents (Elt F) → (⟨S65536x128, .f32⟩ : BufTy).Contents (Elt F) → (⟨S65536x128, .f32⟩ : BufTy).Contents (Elt F)),
    StableHlo.unary main_arg5 main_v24 (Host.sign : (⟨S10x128, .f32⟩ : BufTy).Contents (Elt F) → (⟨S10x128, .f32⟩ : BufTy).Contents (Elt F)),
    StableHlo.binary main_v24 main_arg5 main_v25 (subf : (⟨S10x128, .f32⟩ : BufTy).Contents (Elt F) → (⟨S10x128, .f32⟩ : BufTy).Contents (Elt F) → (⟨S10x128, .f32⟩ : BufTy).Contents (Elt F)),
    StableHlo.binary main_arg5 main_v25 main_v26 (addf : (⟨S10x128, .f32⟩ : BufTy).Contents (Elt F) → (⟨S10x128, .f32⟩ : BufTy).Contents (Elt F) → (⟨S10x128, .f32⟩ : BufTy).Contents (Elt F)),
    StableHlo.unary main_v26 main_v27 ((transpose S128x10 [1, 0] · transposes_S10x128_S128x10_1_0) : (⟨S10x128, .f32⟩ : BufTy).Contents (Elt F) → (⟨S128x10, .f32⟩ : BufTy).Contents (Elt F)),
    StableHlo.binary main_v23 main_v27 main_v28 ((fun l r => Host.dotGeneral dot_S65536x128_S128x10_S65536x10_1_0_0_1_n_n none l r) : (⟨S65536x128, .f32⟩ : BufTy).Contents (Elt F) → (⟨S128x10, .f32⟩ : BufTy).Contents (Elt F) → (⟨S65536x10, .f32⟩ : BufTy).Contents (Elt F)),
    StableHlo.unary main_arg6 main_v29 (broadcastInDim S1x10 ![1] bcast_S10_S1x10_1 : (⟨S10, .f32⟩ : BufTy).Contents (Elt F) → (⟨S1x10, .f32⟩ : BufTy).Contents (Elt F)),
    StableHlo.unary main_v29 main_v30 (broadcastInDim S65536x10 ![0, 1] bcast_S1x10_S65536x10_0_1 : (⟨S1x10, .f32⟩ : BufTy).Contents (Elt F) → (⟨S65536x10, .f32⟩ : BufTy).Contents (Elt F)),
    StableHlo.binary main_v28 main_v30 main_v31 (addf : (⟨S65536x10, .f32⟩ : BufTy).Contents (Elt F) → (⟨S65536x10, .f32⟩ : BufTy).Contents (Elt F) → (⟨S65536x10, .f32⟩ : BufTy).Contents (Elt F)),
    StableHlo.nullary main_cst_3 (constant S_ .f32 0x00000000#32),
    StableHlo.binary main_v31 main_cst_3 main_v32 ((fun x v => Host.reduceAdd x v reducesTo_S65536x10_S10_d0 h_S_) : (⟨S65536x10, .f32⟩ : BufTy).Contents (Elt F) → (⟨S_, .f32⟩ : BufTy).Contents (Elt F) → (⟨S10, .f32⟩ : BufTy).Contents (Elt F)),
    StableHlo.unary main_v32 main_v33 (broadcastInDim S1x10 ![1] bcast_S10_S1x10_1 : (⟨S10, .f32⟩ : BufTy).Contents (Elt F) → (⟨S1x10, .f32⟩ : BufTy).Contents (Elt F)),
    StableHlo.nullary main_cst_4 (constant S_ .f32 0x47800000#32),
    StableHlo.unary main_cst_4 main_v34 (broadcastInDim S1x10 ![] bcast_S_S1x10 : (⟨S_, .f32⟩ : BufTy).Contents (Elt F) → (⟨S1x10, .f32⟩ : BufTy).Contents (Elt F)),
    StableHlo.binary main_v33 main_v34 main_v35 (Host.divf : (⟨S1x10, .f32⟩ : BufTy).Contents (Elt F) → (⟨S1x10, .f32⟩ : BufTy).Contents (Elt F) → (⟨S1x10, .f32⟩ : BufTy).Contents (Elt F)),
    StableHlo.nullary main_c (constantI S_ 32 0#32),
    StableHlo.TRef.nullary main_call2.cst (constant S_ .f32 0x00000000#32),
    StableHlo.TRef.binary (.of main_v31 : StableHlo.TRef sig ⟨S65536x10, .f32⟩) main_call2.cst main_call2.v0 (fun x v => Host.reduceAdd x v reducesTo_S65536x10_S10_d0 h_S_),
    StableHlo.TRef.unary main_call2.v0 main_call2.v1 (broadcastInDim S1x10 ![1] bcast_S10_S1x10_1),
    StableHlo.TRef.nullary main_call2.cst_0 (constant S_ .f32 0x47800000#32),
    StableHlo.TRef.unary main_call2.cst_0 main_call2.v2 (broadcastInDim S1x10 ![] bcast_S_S1x10),
    StableHlo.TRef.binary main_call2.v1 main_call2.v2 main_call2.v3 Host.divf,
    StableHlo.TRef.unary main_call2.v3 main_call2.v4 (broadcastInDim S65536x10 ![0, 1] bcast_S1x10_S65536x10_0_1),
    StableHlo.TRef.binary (.of main_v31 : StableHlo.TRef sig ⟨S65536x10, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x47800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S65536x10_S10_d0 h_S_),
    StableHlo.TRef.unary main_call2.v9 main_call2.v10 (broadcastInDim S1x10 ![1] bcast_S10_S1x10_1),
    StableHlo.TRef.unary main_call2.v8 main_call2.v11 (broadcastInDim S1x10 ![] bcast_S_S1x10),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x10 ![] bcast_S_S1x10),
    StableHlo.TRef.ternary main_call2.v13 main_call2.v12 main_call2.call0.v1 main_call2.call0.v2 (fun p a b => select (broadcastInDim S1x10 ![] bcast_S_S1x10 p) a b),
    StableHlo.unary main_v35 main_v37 (broadcastInDim S65536x10 ![0, 1] bcast_S1x10_S65536x10_0_1 : (⟨S1x10, .f32⟩ : BufTy).Contents (Elt F) → (⟨S65536x10, .f32⟩ : BufTy).Contents (Elt F)),
    StableHlo.binary main_v31 main_v37 main_v38 (subf : (⟨S65536x10, .f32⟩ : BufTy).Contents (Elt F) → (⟨S65536x10, .f32⟩ : BufTy).Contents (Elt F) → (⟨S65536x10, .f32⟩ : BufTy).Contents (Elt F)),
    StableHlo.nullary main_cst_5 (constant S_ .f32 0x3727C5AC#32),
    StableHlo.unary main_cst_5 main_v39 (broadcastInDim S1x10 ![] bcast_S_S1x10 : (⟨S_, .f32⟩ : BufTy).Contents (Elt F) → (⟨S1x10, .f32⟩ : BufTy).Contents (Elt F)),
    StableHlo.binary main_v36 main_v39 main_v40 (addf : (⟨S1x10, .f32⟩ : BufTy).Contents (Elt F) → (⟨S1x10, .f32⟩ : BufTy).Contents (Elt F) → (⟨S1x10, .f32⟩ : BufTy).Contents (Elt F)),
    StableHlo.unary main_v40 main_v41 (Host.sqrt : (⟨S1x10, .f32⟩ : BufTy).Contents (Elt F) → (⟨S1x10, .f32⟩ : BufTy).Contents (Elt F)),
    StableHlo.unary main_v41 main_v42 (broadcastInDim S65536x10 ![0, 1] bcast_S1x10_S65536x10_0_1 : (⟨S1x10, .f32⟩ : BufTy).Contents (Elt F) → (⟨S65536x10, .f32⟩ : BufTy).Contents (Elt F)),
    StableHlo.binary main_v38 main_v42 main_v43 (Host.divf : (⟨S65536x10, .f32⟩ : BufTy).Contents (Elt F) → (⟨S65536x10, .f32⟩ : BufTy).Contents (Elt F) → (⟨S65536x10, .f32⟩ : BufTy).Contents (Elt F)),
    StableHlo.TRef.nullary main_call3.cst (constant S_ .f32 0xFF800000#32),
    StableHlo.TRef.binary (.of main_v43 : StableHlo.TRef sig ⟨S65536x10, .f32⟩) main_call3.cst main_call3.v0 (fun x v => Host.reduce FloatOps.maximumf x v reducesTo_S65536x10_S65536_d1 h_S_),
    StableHlo.TRef.nullary main_call3.cst_0 (constant S_ .f32 0xFF800000#32),
    StableHlo.TRef.unary main_call3.cst_0 main_call3.v1 (broadcastInDim S65536 ![] bcast_S_S65536),
    StableHlo.TRef.binary main_call3.v1 main_call3.v0 main_call3.v2 maximumf,
    StableHlo.TRef.unary main_call3.v2 main_call3.v3 (broadcastInDim S65536x1 ![0] bcast_S65536_S65536x1_0),
    StableHlo.TRef.unary main_call3.v3 main_call3.v4 (broadcastInDim S65536x10 ![0, 1] bcast_S65536x1_S65536x10_0_1),
    StableHlo.TRef.binary (.of main_v43 : StableHlo.TRef sig ⟨S65536x10, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S65536x10_S65536_d1 h_S_),
    StableHlo.TRef.unary main_call3.v7 main_call3.v8 (broadcastInDim S65536x1 ![0] bcast_S65536_S65536x1_0),
    StableHlo.TRef.unary main_call3.v8 main_call3.v9 Host.log,
    StableHlo.TRef.unary main_call3.v9 main_call3.v10 (broadcastInDim S65536x10 ![0, 1] bcast_S65536x1_S65536x10_0_1),
    StableHlo.TRef.binary main_call3.v5 main_call3.v10 main_call3.v11 subf ]

set_option maxRecDepth 16384 in
/-- @main is that straight line, by computation: sequencing grafts the rest of the program onto the leaves of
    what runs first, so a call — its body's steps followed by the caller's remaining steps — is the same chain
    of steps as the flat list's. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., binary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..,
    binary_bufs_sub .., unary_bufs_sub .., binary_bufs_sub .., binary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    binary_bufs_sub .., binary_bufs_sub .., unary_bufs_sub .., binary_bufs_sub .., binary_bufs_sub .., unary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

attribute [local irreducible] Host.reduce Host.reduceAdd transpose broadcastInDim in
set_option maxRecDepth 16384 in
/-- The fold of the line at the result buffer is the staged term: each operation's result read at its own
    buffer is its function of its operands' contents, a typed reference's transport is the identity at a
    literal reference, and what remains is the stages' composition as they spell it. The reductions, the
    transposes and the broadcasts stay folded meanwhile: the equation never looks inside them. -/
theorem out_eq (V : Valuation τ sig (Elt F)) :
    after ops V (main_v44 : DevRef τ sig) = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-! No operation of the line writes an argument: each keeps its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On the one device, for any float values, from any memory with zero counters: every weakly fair execution
    of @main terminates with the result at `RefTerm.refOut` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v44).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.lean ====
/-
  The certificate's five claims.

  Both programs compute, for every batch row, three sign-binarized linear layers (with the clip to [-1, 1] and the
  sign between them), then normalize the 10 logits column by column with the batch mean and variance, and take the
  row-wise log-softmax. The kernel's program does the layers in one launch over blocks of 2048 rows, the statistics
  on the host, and the last stage in a second launch; the reference does everything on the host.

  On the extended reals the two agree under the precondition: the weight matrices hold real numbers, so the
  reference's straight-through binarization w + (sign w − w) is sign w (and a clipped activation is always real);
  the matrix products are the same finite sums; the statistics are the same host operations of equal logits
  arrays; and (h − μ) / √(σ² + ε) = (h − μ) · (σ² + ε)^(-1/2) because σ² ≥ 0 and ε > 0.

  The two frames of the kernel's programs and the idealization's two sign-bit rewrites are the generated ones; the
  reference's frame is its run with the result dropped.
-/
import proofs.«143637_j89189290868841_1_alg».proof.Defs
import proofs.«143637_j89189290868841_1_alg».proof.Proof.ClaimsA
import proofs.«143637_j89189290868841_1_alg».proof.Proof.KernelValue
import proofs.«143637_j89189290868841_1_alg».proof.Proof.RefRun
import Idealize.ShloMosaic.Adequacy
import Idealize.ShloMosaic.Init

noncomputable section

namespace Cert.Proof

open Idealize.ShloMosaic Idealize.ShloMosaic.TcCoe Idealize.SL.Sem

/-- The reference runs, and its arguments end unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The kernel's idealized program ends with its result array at the reference's term of the argument arrays. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v12)
          = Cert.ReferenceIdeal.RefTerm.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.Proof.KernelValue.value m ρ hpre c), (h c).2⟩)
    (Cert.KernelIdeal.KRun.run_named (F := Ideal) m ρ)

/-- From memories agreeing on the arguments both programs end with equal results: the reference's term. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    Cert.Proof.ClaimsA.frame_p, Cert.Proof.ClaimsA.frame_pi, frame_ri, Cert.Proof.ClaimsA.preserves, algebraic⟩

end Cert.Proof

end
